-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S4x64 : Shape := ⟨2, ![4, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S2x3200000 : Shape := ⟨2, ![2, 3200000]⟩
abbrev S100000 : Shape := ⟨1, ![100000]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S4x64 : S_.BroadcastsInDim S4x64 (![] : Fin 0 → Fin S4x64.rank)
  reducesTo_S4x64_S_d0_1 : S4x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S64x1 .f32) (main_arg8 : FVec F S1 .f32) (main_v33 : IVec S_ 1) : IVec S_ 1 :=
  let main_v34 : FVec F S64x1 .f32 := Host.absf main_arg7
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S64 .f32) (main_arg5 : FVec F S64x64 .f32) (main_arg6 : FVec F S64 .f32) (main_arg7 : FVec F S64x1 .f32) (main_arg8 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S100000x4 .f32) (main_arg1 : FVec F S4x64 .f32) (main_arg2 : FVec F S64 .f32) (main_arg3 : FVec F S64x64 .f32) (main_arg4 : FVec F S64 .f32) (main_arg5 : FVec F S64x64 .f32) (main_arg6 : FVec F S64 .f32) (main_arg7 : FVec F S64x1 .f32) (main_arg8 : FVec F S1 .f32) (main_arg9 : IVec S2x3200000 32) (main_arg10 : IVec S100000 32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S4x64 .f32 := Host.absf main_arg1
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_v13 main_v16
-- ==== Kernel.lean ====
abbrev S100000x4 : Shape := ⟨2, ![100000, 4]⟩
abbrev S4x64 : Shape := ⟨2, ![4, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x4 : Shape := ⟨2, ![10000, 4]⟩
abbrev S10000x64 : Shape := ⟨2, ![10000, 64]⟩
abbrev S3300000x64 : Shape := ⟨2, ![3300000, 64]⟩
abbrev S1x64 : Shape := ⟨2, ![1, 64]⟩
abbrev S1x1 : Shape := ⟨2, ![1, 1]⟩
abbrev S100000x1 : Shape := ⟨2, ![100000, 1]⟩
abbrev S10000x1 : Shape := ⟨2, ![10000, 1]⟩

abbrev nBuf : Space → Nat
  | .hbm => 109
  | .vmem => 24
  | .smem => 0
  | _ => 0

abbrev bufTy : (tb : Table) → Fin (tcTables nBuf tb) → BufTy
  | .hbm, ⟨0, _⟩ => ⟨S100000x4, .f32⟩
  | .hbm, ⟨1, _⟩ => ⟨S4x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S2x3200000, .i32⟩
  | .hbm, ⟨10, _⟩ => ⟨S100000, .i32⟩
  | .hbm, ⟨11, _⟩ => ⟨S100000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S1x3200000, .i32⟩
  | .hbm, ⟨16, _⟩ => ⟨S3200000, .i32⟩
  | .hbm, ⟨17, _⟩ => ⟨S3300000, .i32⟩
  | .hbm, ⟨18, _⟩ => ⟨S_, .f32⟩
  | .hbm, ⟨19, _⟩ => ⟨S3300000, .f32⟩
  | .hbm, ⟨20, _⟩ => ⟨S_, .f32⟩
  | .hbm, ⟨21, _⟩ => ⟨S100000, .f32⟩
  | .hbm, ⟨22, _⟩ => ⟨S3300000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S3300000, .i32⟩
  | .hbm, ⟨36, _⟩ => ⟨S3300000, .i1⟩
  | .hbm, ⟨37, _⟩ => ⟨S_, .i32⟩
  | .hbm, ⟨38, _⟩ => ⟨S3300000, .i32⟩
  | .hbm, ⟨39, _⟩ => ⟨S3300000, .i32⟩
  | .hbm, ⟨40, _⟩ => ⟨S3300000, .i32⟩
  | .hbm, ⟨41, _⟩ => ⟨S3300000x1, .i32⟩
  | .hbm, ⟨42, _⟩ => ⟨S3300000, .f32⟩
  | .hbm, ⟨43, _⟩ => ⟨S_, .i32⟩
  | .hbm, ⟨44, _⟩ => ⟨S3300000, .i32⟩
  | .hbm, ⟨45, _⟩ => ⟨S3300000, .i1⟩
  | .hbm, ⟨46, _⟩ => ⟨S_, .i32⟩
  | .hbm, ⟨47, _⟩ => ⟨S3300000, .i32⟩
  | .hbm, ⟨48, _⟩ => ⟨S3300000, .i32⟩
  | .hbm, ⟨49, _⟩ => ⟨S3300000, .i32⟩
  | .hbm, ⟨50, _⟩ => ⟨S3300000x1, .i32⟩
  | .hbm, ⟨51, _⟩ => ⟨S3300000, .f32⟩
  | .hbm, ⟨52, _⟩ => ⟨S3300000, .f32⟩
  | .hbm, ⟨53, _⟩ => ⟨S100000x64, .f32⟩
  | .hbm, ⟨54, _⟩ => ⟨S_, .i32⟩
  | .hbm, ⟨55, _⟩ => ⟨S3300000, .i32⟩
  | .hbm, ⟨56, _⟩ => ⟨S3300000, .i1⟩
  | .hbm, ⟨57, _⟩ => ⟨S_, .i32⟩
  | .hbm, ⟨58, _⟩ => ⟨S3300000, .i32⟩
  | .hbm, ⟨59, _⟩ => ⟨S3300000, .i32⟩
  | .hbm, ⟨60, _⟩ => ⟨S3300000, .i32⟩
  | .hbm, ⟨61, _⟩ => ⟨S3300000x1, .i32⟩
  | .hbm, ⟨62, _⟩ => ⟨S3300000x64, .f32⟩
  | .hbm, ⟨63, _⟩ => ⟨S3300000x1, .f32⟩
  | .hbm, ⟨64, _⟩ => ⟨S3300000x64, .f32⟩
  | .hbm, ⟨65, _⟩ => ⟨S3300000x64, .f32⟩
  | .hbm, ⟨66, _⟩ => ⟨S_, .f32⟩
  | .hbm, ⟨67, _⟩ => ⟨S100000x64, .f32⟩
  | .hbm, ⟨68, _⟩ => ⟨S3300000x1, .i32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S_, .i32⟩
  | .hbm, ⟨73, _⟩ => ⟨S3300000, .i32⟩
  | .hbm, ⟨74, _⟩ => ⟨S3300000, .i1⟩
  | .hbm, ⟨75, _⟩ => ⟨S_, .i32⟩
  | .hbm, ⟨76, _⟩ => ⟨S3300000, .i32⟩
  | .hbm, ⟨77, _⟩ => ⟨S3300000, .i32⟩
  | .hbm, ⟨78, _⟩ => ⟨S3300000, .i32⟩
  | .hbm, ⟨79, _⟩ => ⟨S3300000x1, .i32⟩
  | .hbm, ⟨80, _⟩ => ⟨S3300000x64, .f32⟩
  | .hbm, ⟨81, _⟩ => ⟨S3300000x1, .f32⟩
  | .hbm, ⟨82, _⟩ => ⟨S3300000x64, .f32⟩
  | .hbm, ⟨83, _⟩ => ⟨S3300000x64, .f32⟩
  | .hbm, ⟨84, _⟩ => ⟨S_, .f32⟩
  | .hbm, ⟨85, _⟩ => ⟨S100000x64, .f32⟩
  | .hbm, ⟨86, _⟩ => ⟨S3300000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S_, .i32⟩
  | .hbm, ⟨91, _⟩ => ⟨S3300000, .i32⟩
  | .hbm, ⟨92, _⟩ => ⟨S3300000, .i1⟩
  | .hbm, ⟨93, _⟩ => ⟨S_, .i32⟩
  | .hbm, ⟨94, _⟩ => ⟨S3300000, .i32⟩
  | .hbm, ⟨95, _⟩ => ⟨S3300000, .i32⟩
  | .hbm, ⟨96, _⟩ => ⟨S3300000, .i32⟩
  | .hbm, ⟨97, _⟩ => ⟨S3300000x1, .i32⟩
  | .hbm, ⟨98, _⟩ => ⟨S3300000x64, .f32⟩
  | .hbm, ⟨99, _⟩ => ⟨S3300000x1, .f32⟩
  | .hbm, ⟨100, _⟩ => ⟨S3300000x64, .f32⟩
  | .hbm, ⟨101, _⟩ => ⟨S3300000x64, .f32⟩
  | .hbm, ⟨102, _⟩ => ⟨S_, .f32⟩
  | .hbm, ⟨103, _⟩ => ⟨S100000x64, .f32⟩
  | .hbm, ⟨104, _⟩ => ⟨S3300000x1, .i32⟩
  | .hbm, ⟨105, _⟩ => ⟨S100000x64, .f32⟩
  | .hbm, ⟨106, _⟩ => ⟨S1x64, .f32⟩
  | .hbm, ⟨107, _⟩ => ⟨S1x1, .f32⟩
  | .hbm, ⟨108, _⟩ => ⟨S100000x1, .f32⟩
  | .local _ .vmem, ⟨0, _⟩ => ⟨S10000x4, .f32⟩
  | .local _ .vmem, ⟨1, _⟩ => ⟨S10000x4, .f32⟩
  | .local _ .vmem, ⟨2, _⟩ => ⟨S4x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S64x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S1x64, .f32⟩
  | .local _ .vmem, ⟨20, _⟩ => ⟨S64x1, .f32⟩
  | .local _ .vmem, ⟨21, _⟩ => ⟨S1x1, .f32⟩
  | .local _ .vmem, ⟨22, _⟩ => ⟨S10000x1, .f32⟩
  | .local _ .vmem, ⟨23, _⟩ => ⟨S10000x1, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_c_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_7 : Ref sig .tc := ⟨.hbm, 54, rfl⟩
abbrev main_v32 : Ref sig .tc := ⟨.hbm, 55, rfl⟩
abbrev main_v33 : Ref sig .tc := ⟨.hbm, 56, rfl⟩
abbrev main_c_8 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_10 : Ref sig .tc := ⟨.hbm, 72, rfl⟩
abbrev main_v47 : Ref sig .tc := ⟨.hbm, 73, rfl⟩
abbrev main_v48 : Ref sig .tc := ⟨.hbm, 74, rfl⟩
abbrev main_c_11 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_12 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_13 : Ref sig .tc := ⟨.hbm, 90, rfl⟩
abbrev main_v62 : Ref sig .tc := ⟨.hbm, 91, rfl⟩
abbrev main_v63 : Ref sig .tc := ⟨.hbm, 92, rfl⟩
abbrev main_c_14 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_15 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem4_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x4_S10000x4_0_0 : ∀ a, (![0, 0] : Fin 2 → Nat) a + S10000x4.size a ≤ S10000x4.size a
  h_S10000x4 : 0 < S10000x4.numel
  bitsLt_bf16_f32 : FTy.bits .bf16 < FTy.bits .f32
  inb_S4x64_S4x64_0_0 : ∀ a, (![0, 0] : Fin 2 → Nat) a + S4x64.size a ≤ S4x64.size a
  h_S4x64 : 0 < S4x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x4_S4x64_S10000x64_1_0_0_1_n_n_wf : DotDims.WF S10000x4 S4x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x64_S10000x64_1_0_0_1_n_n_wf : DotDims.WF S10000x64 S64x64 S10000x64 [1] [0] [0] [1] [] []
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x4.size a ≤ S100000x4.size a
  hwx0_0 : ∀ i : grid0.Coords, EltTy.bits .f32 = 32 ∨ (Rect.block (s := S100000x4) S10000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x64.size a ≤ S4x64.size a
  hwx0_1 : ∀ i : grid0.Coords, EltTy.bits .f32 = 32 ∨ (Rect.block (s := S4x64) S4x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x1.size a ≤ S64x1.size a
  hwx3_2 : ∀ i : grid3.Coords, EltTy.bits .f32 = 32 ∨ (Rect.block (s := S64x1) S64x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1.size a ≤ S1x1.size a
  hwx3_3 : ∀ i : grid3.Coords, EltTy.bits .f32 = 32 ∨ (Rect.block (s := S1x1) S1x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x1.size a ≤ S100000x1.size a
  hwx3_4 : ∀ i : grid3.Coords, EltTy.bits .f32 = 32 ∨ (Rect.block (s := S100000x1) S10000x1.size (cc3_transform_4 i) (hinb3_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x4_S4x64_S10000x64_1_0_0_1_n_n : DotDims S10000x4 S4x64 S10000x64 where
  lhsContracting := [1]
  rhsContracting := [0]
  lhsNonContracting := [0]
  rhsNonContracting := [1]
  lhsBatch := []
  rhsBatch := []
  wf := dot_S10000x4_S4x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_arg0) S10000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v59) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v74) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v75) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S64x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v76) S1x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v77) S10000x1.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x4 : Shape := ⟨2, ![100000, 4]⟩
abbrev S4x64 : Shape := ⟨2, ![4, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 126
  | .vmem => 0
  | .smem => 0
  | _ => 0

abbrev bufTy : (tb : Table) → Fin (tcTables nBuf tb) → BufTy
  | .hbm, ⟨0, _⟩ => ⟨S100000x4, .f32⟩
  | .hbm, ⟨1, _⟩ => ⟨S4x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S2x3200000, .i32⟩
  | .hbm, ⟨10, _⟩ => ⟨S100000, .i32⟩
  | .hbm, ⟨11, _⟩ => ⟨S100000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S1x3200000, .i32⟩
  | .hbm, ⟨16, _⟩ => ⟨S3200000, .i32⟩
  | .hbm, ⟨17, _⟩ => ⟨S3300000, .i32⟩
  | .hbm, ⟨18, _⟩ => ⟨S_, .f32⟩
  | .hbm, ⟨19, _⟩ => ⟨S3300000, .f32⟩
  | .hbm, ⟨20, _⟩ => ⟨S_, .f32⟩
  | .hbm, ⟨21, _⟩ => ⟨S100000, .f32⟩
  | .hbm, ⟨22, _⟩ => ⟨S3300000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S3300000, .i32⟩
  | .hbm, ⟨36, _⟩ => ⟨S3300000, .i1⟩
  | .hbm, ⟨37, _⟩ => ⟨S_, .i32⟩
  | .hbm, ⟨38, _⟩ => ⟨S3300000, .i32⟩
  | .hbm, ⟨39, _⟩ => ⟨S3300000, .i32⟩
  | .hbm, ⟨40, _⟩ => ⟨S3300000, .i32⟩
  | .hbm, ⟨41, _⟩ => ⟨S3300000x1, .i32⟩
  | .hbm, ⟨42, _⟩ => ⟨S3300000, .f32⟩
  | .hbm, ⟨43, _⟩ => ⟨S_, .i32⟩
  | .hbm, ⟨44, _⟩ => ⟨S3300000, .i32⟩
  | .hbm, ⟨45, _⟩ => ⟨S3300000, .i1⟩
  | .hbm, ⟨46, _⟩ => ⟨S_, .i32⟩
  | .hbm, ⟨47, _⟩ => ⟨S3300000, .i32⟩
  | .hbm, ⟨48, _⟩ => ⟨S3300000, .i32⟩
  | .hbm, ⟨49, _⟩ => ⟨S3300000, .i32⟩
  | .hbm, ⟨50, _⟩ => ⟨S3300000x1, .i32⟩
  | .hbm, ⟨51, _⟩ => ⟨S3300000, .f32⟩
  | .hbm, ⟨52, _⟩ => ⟨S3300000, .f32⟩
  | .hbm, ⟨53, _⟩ => ⟨S100000x64, .f32⟩
  | .hbm, ⟨54, _⟩ => ⟨S_, .i32⟩
  | .hbm, ⟨55, _⟩ => ⟨S3300000, .i32⟩
  | .hbm, ⟨56, _⟩ => ⟨S3300000, .i1⟩
  | .hbm, ⟨57, _⟩ => ⟨S_, .i32⟩
  | .hbm, ⟨58, _⟩ => ⟨S3300000, .i32⟩
  | .hbm, ⟨59, _⟩ => ⟨S3300000, .i32⟩
  | .hbm, ⟨60, _⟩ => ⟨S3300000, .i32⟩
  | .hbm, ⟨61, _⟩ => ⟨S3300000x1, .i32⟩
  | .hbm, ⟨62, _⟩ => ⟨S3300000x64, .f32⟩
  | .hbm, ⟨63, _⟩ => ⟨S3300000x1, .f32⟩
  | .hbm, ⟨64, _⟩ => ⟨S3300000x64, .f32⟩
  | .hbm, ⟨65, _⟩ => ⟨S3300000x64, .f32⟩
  | .hbm, ⟨66, _⟩ => ⟨S_, .f32⟩
  | .hbm, ⟨67, _⟩ => ⟨S100000x64, .f32⟩
  | .hbm, ⟨68, _⟩ => ⟨S3300000x1, .i32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S100000x64, .f32⟩
  | .hbm, ⟨73, _⟩ => ⟨S_, .f32⟩
  | .hbm, ⟨74, _⟩ => ⟨S100000x64, .f32⟩
  | .hbm, ⟨75, _⟩ => ⟨S100000x64, .f32⟩
  | .hbm, ⟨76, _⟩ => ⟨S100000x64, .f32⟩
  | .hbm, ⟨77, _⟩ => ⟨S_, .i32⟩
  | .hbm, ⟨78, _⟩ => ⟨S3300000, .i32⟩
  | .hbm, ⟨79, _⟩ => ⟨S3300000, .i1⟩
  | .hbm, ⟨80, _⟩ => ⟨S_, .i32⟩
  | .hbm, ⟨81, _⟩ => ⟨S3300000, .i32⟩
  | .hbm, ⟨82, _⟩ => ⟨S3300000, .i32⟩
  | .hbm, ⟨83, _⟩ => ⟨S3300000, .i32⟩
  | .hbm, ⟨84, _⟩ => ⟨S3300000x1, .i32⟩
  | .hbm, ⟨85, _⟩ => ⟨S3300000x64, .f32⟩
  | .hbm, ⟨86, _⟩ => ⟨S3300000x1, .f32⟩
  | .hbm, ⟨87, _⟩ => ⟨S3300000x64, .f32⟩
  | .hbm, ⟨88, _⟩ => ⟨S3300000x64, .f32⟩
  | .hbm, ⟨89, _⟩ => ⟨S_, .f32⟩
  | .hbm, ⟨90, _⟩ => ⟨S100000x64, .f32⟩
  | .hbm, ⟨91, _⟩ => ⟨S3300000x1, .i32⟩
  | .hbm, ⟨92, _⟩ => ⟨S100000x64, .f32⟩
  | .hbm, ⟨93, _⟩ => ⟨S1x64, .f32⟩
  | .hbm, ⟨94, _⟩ => ⟨S100000x64, .f32⟩
  | .hbm, ⟨95, _⟩ => ⟨S100000x64, .f32⟩
  | .hbm, ⟨96, _⟩ => ⟨S_, .f32⟩
  | .hbm, ⟨97, _⟩ => ⟨S100000x64, .f32⟩
  | .hbm, ⟨98, _⟩ => ⟨S100000x64, .f32⟩
  | .hbm, ⟨99, _⟩ => ⟨S100000x64, .f32⟩
  | .hbm, ⟨100, _⟩ => ⟨S_, .i32⟩
  | .hbm, ⟨101, _⟩ => ⟨S3300000, .i32⟩
  | .hbm, ⟨102, _⟩ => ⟨S3300000, .i1⟩
  | .hbm, ⟨103, _⟩ => ⟨S_, .i32⟩
  | .hbm, ⟨104, _⟩ => ⟨S3300000, .i32⟩
  | .hbm, ⟨105, _⟩ => ⟨S3300000, .i32⟩
  | .hbm, ⟨106, _⟩ => ⟨S3300000, .i32⟩
  | .hbm, ⟨107, _⟩ => ⟨S3300000x1, .i32⟩
  | .hbm, ⟨108, _⟩ => ⟨S3300000x64, .f32⟩
  | .hbm, ⟨109, _⟩ => ⟨S3300000x1, .f32⟩
  | .hbm, ⟨110, _⟩ => ⟨S3300000x64, .f32⟩
  | .hbm, ⟨111, _⟩ => ⟨S3300000x64, .f32⟩
  | .hbm, ⟨112, _⟩ => ⟨S_, .f32⟩
  | .hbm, ⟨113, _⟩ => ⟨S100000x64, .f32⟩
  | .hbm, ⟨114, _⟩ => ⟨S3300000x1, .i32⟩
  | .hbm, ⟨115, _⟩ => ⟨S100000x64, .f32⟩
  | .hbm, ⟨116, _⟩ => ⟨S1x64, .f32⟩
  | .hbm, ⟨117, _⟩ => ⟨S100000x64, .f32⟩
  | .hbm, ⟨118, _⟩ => ⟨S100000x64, .f32⟩
  | .hbm, ⟨119, _⟩ => ⟨S_, .f32⟩
  | .hbm, ⟨120, _⟩ => ⟨S100000x64, .f32⟩
  | .hbm, ⟨121, _⟩ => ⟨S100000x64, .f32⟩
  | .hbm, ⟨122, _⟩ => ⟨S100000x1, .f32⟩
  | .hbm, ⟨123, _⟩ => ⟨S1x1, .f32⟩
  | .hbm, ⟨124, _⟩ => ⟨S100000x1, .f32⟩
  | .hbm, ⟨125, _⟩ => ⟨S100000x1, .f32⟩
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_c_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_7 : Ref sig .tc := ⟨.hbm, 54, rfl⟩
abbrev main_v32 : Ref sig .tc := ⟨.hbm, 55, rfl⟩
abbrev main_v33 : Ref sig .tc := ⟨.hbm, 56, rfl⟩
abbrev main_c_8 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_call1_cst : Ref sig .tc := ⟨.hbm, 73, rfl⟩
abbrev main_call1_v0 : Ref sig .tc := ⟨.hbm, 74, rfl⟩
abbrev main_v48 : Ref sig .tc := ⟨.hbm, 75, rfl⟩
abbrev main_v49 : Ref sig .tc := ⟨.hbm, 76, rfl⟩
abbrev main_c_10 : Ref sig .tc := ⟨.hbm, 77, rfl⟩
abbrev main_v50 : Ref sig .tc := ⟨.hbm, 78, rfl⟩
abbrev main_v51 : Ref sig .tc := ⟨.hbm, 79, rfl⟩
abbrev main_c_11 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_12 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_call2_cst : Ref sig .tc := ⟨.hbm, 96, rfl⟩
abbrev main_call2_v0 : Ref sig .tc := ⟨.hbm, 97, rfl⟩
abbrev main_v66 : Ref sig .tc := ⟨.hbm, 98, rfl⟩
abbrev main_v67 : Ref sig .tc := ⟨.hbm, 99, rfl⟩
abbrev main_c_13 : Ref sig .tc := ⟨.hbm, 100, rfl⟩
abbrev main_v68 : Ref sig .tc := ⟨.hbm, 101, rfl⟩
abbrev main_v69 : Ref sig .tc := ⟨.hbm, 102, rfl⟩
abbrev main_c_14 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_15 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_call3_cst : Ref sig .tc := ⟨.hbm, 119, rfl⟩
abbrev main_call3_v0 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x4_S4x64_S100000x64_1_0_0_1_n_n_wf : DotDims.WF S100000x4 S4x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x4_S4x64_S100000x64_1_0_0_1_n_n : DotDims S100000x4 S4x64 S100000x64 where
  lhsContracting := [1]
  rhsContracting := [0]
  lhsNonContracting := [0]
  rhsNonContracting := [1]
  lhsBatch := []
  rhsBatch := []
  wf := dot_S100000x4_S4x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The idealized kernel's run with its result named.

  @main is four grid regions among stretches of host operations. Every weakly fair execution from any launch memory
  terminates without a fault, the eleven argument arrays end as launched, and the result array ends at the last
  boundary's contents of its buffer: the last region's write-backs folded over what the region found there.
  What those contents are, as a function of the arguments, is read off boundary by boundary in the modules that
  import this one.
-/
import proofs.«144403_j61624190763180_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the program's ten segments (three host stretches, then region and host stretch alternating, the
    last segment the fourth region), its last thread state read against the final memory: the result buffer and the
    arguments are among the buffers that state holds at the last boundary's contents. -/
theorem run : θ_run defs (onTc (τ := τ) (main (F := F))) ⟨m, fun _ => 0, ρ⟩ (fun r => ∀ c : Dev nD,
      r.2.mem ((c.tc : Thread nD τ).loc main_v77) = W10 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v77 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c)⟩)

end Cert.KernelIdeal.Named

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.Bodies.lean ====
/-
  The four kernel bodies, each read at one entry of its output block, over the exact values.

  Rounding an operand to a narrower float format changes nothing over the exact values, and a product
  accumulated onto the zero block is the plain sum over the contracted axis. So the first body's block is
  (x · W)(p, q) = ∑ₖ x(p, k) · W(k, q); the two middle bodies' block is the same sum with x(p, k) replaced by
  the activation max(a(p, k) + b(0, k), 0) of the aggregated features a and the bias row b; and the last body
  adds the output bias's one entry to that sum.
-/
import proofs.«144403_j61624190763180_1_alg».proof.Proof.Gen.KernelIdeal.Skeleton
import proofs.«144403_j61624190763180_1_alg».proof.Proof.LibPlainDot
import proofs.«144403_j61624190763180_1_alg».proof.Proof.LibRowBroadcasts
import Idealize.ShloMosaic.Lib.ValueIdx
import Idealize.ShloMosaic.Lib.Pipeline.Value
import Idealize.ShloMosaic.PureOps.Ideal.Laws

noncomputable section

namespace Cert.KernelIdeal.Bodies

open Cert.KernelIdeal Cert.KernelIdeal.Gen
open Idealize.ShloMosaic Idealize.ShloMosaic.ValueIdx
open scoped BigOperators

/-- The zero every activation is clamped at: the all-zero word's exact value. -/
abbrev zero32 : EReal := Ideal.ofBits .f32 0x00000000#32

/-- The activation of one aggregated feature under its bias: their sum, clamped below at zero. -/
abbrev act (a b : EReal) : EReal := max (a + b) zero32

/-- The first body: the node block times the first weight matrix. -/
theorem pay0_apply (x0 : FVec Ideal S10000x4 .f32) (x1 : FVec Ideal S4x64 .f32) (p : Fin 10000) (q : Fin 64) :
    k0_pay1 (F := Ideal) x0 x1 (ix2 p q) = ∑ k : Fin 4, x0 (ix2 p k) * x1 (ix2 k q) := by
  unfold k0_pay1
  exact Cert.Lib.PlainDot.matmul_zero_apply dot_S10000x4_S4x64_S10000x64_1_0_0_1_n_n_wf none _ _ p q

/-- The activated block of the middle and last bodies at (p, k). -/
theorem act_apply (x0 : FVec Ideal S10000x64 .f32) (x1 : FVec Ideal S1x64 .f32) (p : Fin 10000) (k : Fin 64) :
    (truncf .bf16 (maximumf (addf (shapeCast S10000x64 x0 shapeCasts_S10000x64_S10000x64)
        (broadcastTo S10000x64 (shapeCast S1x64 x1 shapeCasts_S1x64_S1x64) broadcasts_S1x64_S10000x64))
      (broadcast S10000x64 (Scalar.ofBits (F := Ideal) .f32 0x00000000#32))) bitsLt_bf16_f32 : FVec Ideal S10000x64 .bf16) (ix2 p k)
      = act (x0 (ix2 p k)) (x1 (ix2 (0 : Fin 1) k)) := by
  rw [shapeCast_self, shapeCast_self]
  show max (x0 (ix2 p k) + broadcastTo S10000x64 x1 broadcasts_S1x64_S10000x64 (ix2 p k)) _ = _
  rw [Cert.Lib.Rows.bcastRow_apply]
  rfl

/-- The second body: the activated block times the second weight matrix. -/
theorem pay1_apply (x0 : FVec Ideal S10000x64 .f32) (x1 : FVec Ideal S1x64 .f32) (x2 : FVec Ideal S64x64 .f32)
    (p : Fin 10000) (q : Fin 64) :
    k1_pay1 (F := Ideal) x0 x1 x2 (ix2 p q) = ∑ k : Fin 64, act (x0 (ix2 p k)) (x1 (ix2 (0 : Fin 1) k)) * x2 (ix2 k q) := by
  unfold k1_pay1
  refine (Cert.Lib.PlainDot.matmul_zero_apply dot_S10000x64_S64x64_S10000x64_1_0_0_1_n_n_wf none _ _ p q).trans ?_
  refine Finset.sum_congr rfl fun k _ => ?_
  rw [act_apply]
  rfl

/-- The third body is the second body's text over its own operands. -/
theorem pay2_apply (x0 : FVec Ideal S10000x64 .f32) (x1 : FVec Ideal S1x64 .f32) (x2 : FVec Ideal S64x64 .f32)
    (p : Fin 10000) (q : Fin 64) :
    k2_pay1 (F := Ideal) x0 x1 x2 (ix2 p q) = ∑ k : Fin 64, act (x0 (ix2 p k)) (x1 (ix2 (0 : Fin 1) k)) * x2 (ix2 k q) :=
  pay1_apply x0 x1 x2 p q

/-- The last body: the activated block times the output weights' one column, plus the output bias's one entry. -/
theorem pay3_apply (x0 : FVec Ideal S10000x64 .f32) (x1 : FVec Ideal S1x64 .f32) (x2 : FVec Ideal S64x1 .f32)
    (x3 : FVec Ideal S1x1 .f32) (p : Fin 10000) (q : Fin 1) :
    k3_pay1 (F := Ideal) x0 x1 x2 x3 (ix2 p q)
      = (∑ k : Fin 64, act (x0 (ix2 p k)) (x1 (ix2 (0 : Fin 1) k)) * x2 (ix2 k q)) + x3 (ix2 (0 : Fin 1) q) := by
  unfold k3_pay1
  show matmul dot_S10000x64_S64x1_S10000x1_1_0_0_1_n_n none _ _ (constant S10000x1 .f32 0x00000000#32) (ix2 p q)
      + broadcastTo S10000x1 (shapeCast S1x1 x3 shapeCasts_S1x1_S1x1) broadcasts_S1x1_S10000x1 (ix2 p q) = _
  rw [Cert.Lib.Rows.bcastRow_apply, shapeCast_self x3]
  refine congrArg (· + x3 (ix2 (0 : Fin 1) q)) ?_
  refine (Cert.Lib.PlainDot.matmul_zero_apply dot_S10000x64_S64x1_S10000x1_1_0_0_1_n_n_wf none _ _ p q).trans ?_
  refine Finset.sum_congr rfl fun k _ => ?_
  rw [act_apply]
  rfl

end Cert.KernelIdeal.Bodies

end
-- ==== Proof.Layers.lean ====
/-
  The reference's dense layers as whole-array functions, read at an entry.

  After each aggregation the reference adds the bias row to every node's features, clamps below at zero, and
  multiplies by the next weight matrix; the last layer also adds the output bias. Over the exact values each is,
  at (r, q), the sum over the hidden axis of max(a(r, k) + b(0, k), 0) · W(k, q) (plus the output bias's entry):
  the same sum a kernel body computes on its block of rows.
-/
import proofs.«144403_j61624190763180_1_alg».proof.Proof.ReadP
import proofs.«144403_j61624190763180_1_alg».proof.Proof.Bodies

noncomputable section

namespace Cert.ReferenceIdeal.Layers

open Cert.ReferenceIdeal Cert.ReferenceIdeal.Gen Cert.ReferenceIdeal.ReadP
open Cert.KernelIdeal.Bodies (act zero32)
open Idealize.ShloMosaic Idealize.ShloMosaic.ValueIdx
open scoped BigOperators

/-- The activated features: the aggregated features plus the bias row on every node, clamped below at zero. -/
def hidden (A : FVec Ideal S100000x64 .f32) (B : FVec Ideal S1x64 .f32) : FVec Ideal S100000x64 .f32 :=
  maximumf (addf A (broadcastInDim S100000x64 ![0, 1] bcast_S1x64_S100000x64_0_1 B))
    (broadcastInDim S100000x64 ![] bcast_S_S100000x64 (constant S_ .f32 0x00000000#32))

theorem hidden_apply (A : FVec Ideal S100000x64 .f32) (B : FVec Ideal S1x64 .f32) (r : Fin 100000) (k : Fin 64) :
    hidden A B (ix2 r k) = act (A (ix2 r k)) (B (ix2 (0 : Fin 1) k)) := by
  unfold hidden
  show max (A (ix2 r k) + broadcastInDim S100000x64 ![0, 1] bcast_S1x64_S100000x64_0_1 B (ix2 r k))
      (broadcastInDim S100000x64 ![] bcast_S_S100000x64 (constant (F := Ideal) S_ .f32 0x00000000#32) (ix2 r k)) = _
  rw [Cert.Lib.Rows.dimRow_apply,
    broadcastInDim_apply _ bcast_S_S100000x64 (constant (F := Ideal) S_ .f32 0x00000000#32) (ix2 r k) ix0 (fun a => a.elim0)]
  rfl

/-- A hidden layer: the activated features times a 64 × 64 weight matrix. -/
def layer (A : FVec Ideal S100000x64 .f32) (B : FVec Ideal S1x64 .f32) (W : FVec Ideal S64x64 .f32) :
    FVec Ideal S100000x64 .f32 :=
  Host.dotGeneral dot_S100000x64_S64x64_S100000x64_1_0_0_1_n_n none (hidden A B) W

theorem layer_apply (A : FVec Ideal S100000x64 .f32) (B : FVec Ideal S1x64 .f32) (W : FVec Ideal S64x64 .f32)
    (r : Fin 100000) (q : Fin 64) :
    layer A B W (ix2 r q) = ∑ k : Fin 64, act (A (ix2 r k)) (B (ix2 (0 : Fin 1) k)) * W (ix2 k q) := by
  unfold layer
  refine (Cert.Lib.PlainDot.dotGeneral_apply dot_S100000x64_S64x64_S100000x64_1_0_0_1_n_n_wf none (hidden A B) W r q).trans ?_
  refine Finset.sum_congr rfl fun k _ => ?_
  rw [hidden_apply]

/-- The output layer: the activated features times the 64 × 1 output weights, plus the output bias. -/
def outLayer (A : FVec Ideal S100000x64 .f32) (B : FVec Ideal S1x64 .f32) (W : FVec Ideal S64x1 .f32)
    (Bo : FVec Ideal S1x1 .f32) : FVec Ideal S100000x1 .f32 :=
  addf (Host.dotGeneral dot_S100000x64_S64x1_S100000x1_1_0_0_1_n_n none (hidden A B) W)
    (broadcastInDim S100000x1 ![0, 1] bcast_S1x1_S100000x1_0_1 Bo)

theorem outLayer_apply (A : FVec Ideal S100000x64 .f32) (B : FVec Ideal S1x64 .f32) (W : FVec Ideal S64x1 .f32)
    (Bo : FVec Ideal S1x1 .f32) (r : Fin 100000) (q : Fin 1) :
    outLayer A B W Bo (ix2 r q)
      = (∑ k : Fin 64, act (A (ix2 r k)) (B (ix2 (0 : Fin 1) k)) * W (ix2 k q)) + Bo (ix2 (0 : Fin 1) q) := by
  unfold outLayer
  show Host.dotGeneral dot_S100000x64_S64x1_S100000x1_1_0_0_1_n_n none (hidden A B) W (ix2 r q)
      + broadcastInDim S100000x1 ![0, 1] bcast_S1x1_S100000x1_0_1 Bo (ix2 r q) = _
  rw [Cert.Lib.Rows.dimRow_apply]
  refine congrArg (· + Bo (ix2 (0 : Fin 1) q)) ?_
  refine (Cert.Lib.PlainDot.dotGeneral_apply dot_S100000x64_S64x1_S100000x1_1_0_0_1_n_n_wf none (hidden A B) W r q).trans ?_
  refine Finset.sum_congr rfl fun k _ => ?_
  rw [hidden_apply]

/-- The reference's second, third and last products are these layers of the stages before them. -/
theorem v49_eq (x0 : FVec Ideal S100000x4 .f32) (x1 : FVec Ideal S4x64 .f32) (x2 : FVec Ideal S64 .f32)
    (x3 : FVec Ideal S64x64 .f32) (x9 : IVec S2x3200000 32) :
    val_main_v49 (F := Ideal) x0 x1 x2 x3 x9 = layer (val_main_v44 (F := Ideal) x0 x1 x9) (val_main_v45 (F := Ideal) x2) x3 := rfl

theorem v67_eq (x0 : FVec Ideal S100000x4 .f32) (x1 : FVec Ideal S4x64 .f32) (x2 : FVec Ideal S64 .f32)
    (x3 : FVec Ideal S64x64 .f32) (x4 : FVec Ideal S64 .f32) (x5 : FVec Ideal S64x64 .f32) (x9 : IVec S2x3200000 32) :
    val_main_v67 (F := Ideal) x0 x1 x2 x3 x4 x5 x9
      = layer (val_main_v62 (F := Ideal) x0 x1 x2 x3 x9) (val_main_v63 (F := Ideal) x4) x5 := rfl

theorem v88_eq (x0 : FVec Ideal S100000x4 .f32) (x1 : FVec Ideal S4x64 .f32) (x2 : FVec Ideal S64 .f32)
    (x3 : FVec Ideal S64x64 .f32) (x4 : FVec Ideal S64 .f32) (x5 : FVec Ideal S64x64 .f32) (x6 : FVec Ideal S64 .f32)
    (x7 : FVec Ideal S64x1 .f32) (x8 : FVec Ideal S1 .f32) (x9 : IVec S2x3200000 32) :
    val_main_v88 (F := Ideal) x0 x1 x2 x3 x4 x5 x6 x7 x8 x9
      = outLayer (val_main_v80 (F := Ideal) x0 x1 x2 x3 x4 x5 x9) (val_main_v81 (F := Ideal) x6) x7 (val_main_v86 (F := Ideal) x8) := rfl

end Cert.ReferenceIdeal.Layers

end
-- ==== Proof.Region0.lean ====
/-
  The first region's result array as one function of the arrays the region finds.

  The node array is cut into ten blocks of 10000 rows; at grid point t the body multiplies block t by the whole
  first weight matrix and the product is written back as block t of the result. Row p of block t is row
  10000·t + p of the node array, so every entry of the result array is the plain product's entry:
  (x · W)(r, q) = ∑ₖ x(r, k) · W(k, q) — what the reference computes in one product over the whole array.
-/
import proofs.«144403_j61624190763180_1_alg».proof.Proof.Gen.KernelIdeal.Frame
import proofs.«144403_j61624190763180_1_alg».proof.Proof.Bodies
import proofs.«144403_j61624190763180_1_alg».proof.Proof.ReadP

set_option maxRecDepth 16384

noncomputable section

namespace Cert.KernelIdeal.Region0

open Cert.KernelIdeal Cert.KernelIdeal.Gen Cert.KernelIdeal.Bodies
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the node window and the result window move down one block per point, the
    weight window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of block t, as a row of the whole array. -/
def row (t : Fin cfg0.N) (p : Fin 10000) : Fin 100000 :=
  ⟨t.val * 10000 + p.val, by have h1 := t.isLt; have h2 : cfg0.N = 10 := N_0; have h3 := p.isLt; omega⟩

/-- The reference's first product, read at an entry. -/
theorem product_apply (A : FVec Ideal Cert.ReferenceIdeal.S100000x4 .f32) (W : FVec Ideal Cert.ReferenceIdeal.S4x64 .f32)
    (r : Fin 100000) (q : Fin 64) :
    Cert.ReferenceIdeal.ReadP.val_main_v31 (F := Ideal) A W (ix2 r q) = ∑ k : Fin 4, A (ix2 r k) * W (ix2 k q) := by
  unfold Cert.ReferenceIdeal.ReadP.val_main_v31
  exact Cert.Lib.PlainDot.dotGeneral_apply Cert.ReferenceIdeal.Facts₀.dot_S100000x4_S4x64_S100000x64_1_0_0_1_n_n_wf none A W r q

/-- The node window's block at point t holds rows 10000·t … of the node array. -/
theorem nodes_apply (c : Dev nD) (t : Fin cfg0.N) (p : Fin 10000) (k : Fin 4) :
    (iblk0 V c 0 t : FVec Ideal S10000x4 .f32) (ix2 p k) = (V c main_arg0 : FVec Ideal S100000x4 .f32) (ix2 (row t p) k) := by
  obtain ⟨e0, e1, -⟩ := idx_facts t
  unfold iblk0
  rw [View.read_apply]
  show V c main_arg0 (((cfg0.win 0).blk t).view.emb (ix2 p k)) = V c main_arg0 (ix2 (row t p) k)
  refine congrArg (V c main_arg0) (funext fun a => Fin.ext ?_)
  match a with
  | ⟨0, _⟩ => show win0_0.index t (0 : Fin 2) * 10000 + 1 * p.val = t.val * 10000 + p.val; rw [e0]; omega
  | ⟨1, _⟩ => show win0_0.index t (1 : Fin 2) * 4 + 1 * k.val = k.val; rw [e1]; omega

/-- The weight window's block at every point is the whole weight matrix. -/
theorem weights_apply (c : Dev nD) (t : Fin cfg0.N) (k : Fin 4) (q : Fin 64) :
    (iblk0 V c 1 t : FVec Ideal S4x64 .f32) (ix2 k q) = (V c main_arg1 : FVec Ideal S4x64 .f32) (ix2 k q) := by
  obtain ⟨-, -, e2, e3, -⟩ := idx_facts t
  unfold iblk0
  rw [View.read_apply]
  show V c main_arg1 (((cfg0.win 1).blk t).view.emb (ix2 k q)) = V c main_arg1 (ix2 k q)
  refine congrArg (V c main_arg1) (funext fun a => Fin.ext ?_)
  match a with
  | ⟨0, _⟩ => show win0_1.index t (0 : Fin 2) * 4 + 1 * k.val = k.val; rw [e2]; omega
  | ⟨1, _⟩ => show win0_1.index t (1 : Fin 2) * 64 + 1 * q.val = q.val; rw [e3]; omega

/-- Entry (p, q) of the result window's block at point t sits at (10000·t + p, q) of the result array. -/
theorem out_emb (t : Fin cfg0.N) (p : Fin 10000) (q : Fin 64) :
    ((cfg0.win 2).blk t).view.emb (ix2 p q) = (ix2 (row t p) q : S100000x64.Idx) := by
  obtain ⟨-, -, -, -, e4, e5⟩ := idx_facts t
  refine funext fun a => Fin.ext ?_
  match a with
  | ⟨0, _⟩ => show win0_2.index t (0 : Fin 2) * 10000 + 1 * p.val = t.val * 10000 + p.val; rw [e4]; omega
  | ⟨1, _⟩ => show win0_2.index t (1 : Fin 2) * 64 + 1 * q.val = q.val; rw [e5]; omega

/-- What point t writes back is block t of the whole product. -/
theorem flushed_eq (c : Dev nD) (t : Fin cfg0.N) :
    (dat0 V c).flushed 2 t = ((cfg0.win 2).blk t).view.read (Elt Ideal)
      (Cert.ReferenceIdeal.ReadP.val_main_v31 (F := Ideal) (V c main_arg0) (V c main_arg1)) := by
  show (cfg0.win 2).cut (grid0.coords t) ((dat0 V c).after 2 t) = _
  rw [after0_2]
  unfold out0_2
  rw [View.canon_unit_zero hz]
  simp only [View.ld_unit_zero (S := S10000x4) hz, View.ld_unit_zero (S := S4x64) hz]
  funext j
  obtain ⟨p, q, rfl⟩ : ∃ (p : Fin 10000) (q : Fin 64), j = ix2 p q := ⟨j 0, j 1, eq_ix2 j⟩
  show k0_pay1 (F := Ideal) (iblk0 V c 0 t) (iblk0 V c 1 t) (ix2 p q)
    = Cert.ReferenceIdeal.ReadP.val_main_v31 (F := Ideal) (V c main_arg0) (V c main_arg1) (((cfg0.win 2).blk t).view.emb (ix2 p q))
  rw [out_emb t p q]
  refine (pay0_apply (iblk0 V c 0 t) (iblk0 V c 1 t) p q).trans ?_
  refine Eq.trans ?_ (product_apply (V c main_arg0) (V c main_arg1) (row t p) q).symm
  refine Finset.sum_congr rfl fun k _ => ?_
  rw [nodes_apply V c t p k, weights_apply V c t k q]

/-- Every row of the result array lies in the block of the point its thousands-of-ten name. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  let t : Fin cfg0.N := ⟨(i 0).val / 10000, by rw [show cfg0.N = 10 from N_0]; omega⟩
  obtain ⟨-, -, -, -, e4, e5⟩ := idx_facts t
  refine ⟨t, flush0_2 t, ?_⟩
  show i ∈ ((View.whole main_v31).slice (win0_2.rect t)).set
  rw [View.set_slice_whole, Rect.mem_set_unit]
  intro a
  match a with
  | ⟨0, _⟩ =>
    show win0_2.index t (0 : Fin 2) * 10000 ≤ (i 0).val ∧ (i 0).val < win0_2.index t (0 : Fin 2) * 10000 + 10000
    rw [e4]; show (i 0).val / 10000 * 10000 ≤ (i 0).val ∧ (i 0).val < (i 0).val / 10000 * 10000 + 10000; omega
  | ⟨1, _⟩ =>
    show win0_2.index t (1 : Fin 2) * 64 ≤ (i 1).val ∧ (i 1).val < win0_2.index t (1 : Fin 2) * 64 + 64
    rw [e5]; omega

/-- The result array after the region is the whole product of the two arrays the region found. -/
theorem value (c : Dev nD) :
    (dat0 V c).arrAt 2 cfg0.N = Cert.ReferenceIdeal.ReadP.val_main_v31 (F := Ideal) (V c main_arg0) (V c main_arg1) :=
  (dat0 V c).arrAt_eq_of_cover 2 _ (fun t _ => flushed_eq V c t) (cover)

end Cert.KernelIdeal.Region0

end
-- ==== Proof.Region1.lean ====
/-
  The second region's result array as one function of the arrays the region finds.

  The aggregated features are cut into ten blocks of 10000 rows; at grid point t the body adds the bias row to block t,
  clamps below at zero, multiplies by the whole weight matrix, and the product is written back as block t of the
  result. Row p of block t is row 10000·t + p of the feature array, so the result array is the reference's hidden
  layer of the arrays the region found, entry by entry.
-/
import proofs.«144403_j61624190763180_1_alg».proof.Proof.Gen.KernelIdeal.Frame
import proofs.«144403_j61624190763180_1_alg».proof.Proof.Bodies
import proofs.«144403_j61624190763180_1_alg».proof.Proof.Layers

set_option maxRecDepth 16384

noncomputable section

namespace Cert.KernelIdeal.Region1

open Cert.KernelIdeal Cert.KernelIdeal.Gen Cert.KernelIdeal.Bodies
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the feature window and the result window move down one block per point, the
    bias row's and the weights' windows stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of block t, as a row of the whole array. -/
def row (t : Fin cfg1.N) (p : Fin 10000) : Fin 100000 :=
  ⟨t.val * 10000 + p.val, by have h1 := t.isLt; have h2 : cfg1.N = 10 := N_1; have h3 := p.isLt; omega⟩

/-- The feature window's block at point t holds rows 10000·t … of the aggregated features. -/
theorem features_apply (c : Dev nD) (t : Fin cfg1.N) (p : Fin 10000) (k : Fin 64) :
    (iblk1 V c 0 t : FVec Ideal S10000x64 .f32) (ix2 p k) = (V c main_v44 : FVec Ideal S100000x64 .f32) (ix2 (row t p) k) := by
  obtain ⟨e0, e1, -⟩ := idx_facts t
  unfold iblk1
  rw [View.read_apply]
  show V c main_v44 (((cfg1.win 0).blk t).view.emb (ix2 p k)) = V c main_v44 (ix2 (row t p) k)
  refine congrArg (V c main_v44) (funext fun a => Fin.ext ?_)
  match a with
  | ⟨0, _⟩ => show win1_0.index t (0 : Fin 2) * 10000 + 1 * p.val = t.val * 10000 + p.val; rw [e0]; omega
  | ⟨1, _⟩ => show win1_0.index t (1 : Fin 2) * 64 + 1 * k.val = k.val; rw [e1]; omega

/-- The bias window's block at every point is the whole bias row. -/
theorem bias_apply (c : Dev nD) (t : Fin cfg1.N) (u : Fin 1) (k : Fin 64) :
    (iblk1 V c 1 t : FVec Ideal S1x64 .f32) (ix2 u k) = (V c main_v45 : FVec Ideal S1x64 .f32) (ix2 u k) := by
  obtain ⟨-, -, e2, e3, -⟩ := idx_facts t
  unfold iblk1
  rw [View.read_apply]
  show V c main_v45 (((cfg1.win 1).blk t).view.emb (ix2 u k)) = V c main_v45 (ix2 u k)
  refine congrArg (V c main_v45) (funext fun a => Fin.ext ?_)
  match a with
  | ⟨0, _⟩ => show win1_1.index t (0 : Fin 2) * 1 + 1 * u.val = u.val; rw [e2]; omega
  | ⟨1, _⟩ => show win1_1.index t (1 : Fin 2) * 64 + 1 * k.val = k.val; rw [e3]; omega

/-- The weight window's block at every point is the whole weight matrix. -/
theorem weights_apply (c : Dev nD) (t : Fin cfg1.N) (k : Fin 64) (q : Fin 64) :
    (iblk1 V c 2 t : FVec Ideal S64x64 .f32) (ix2 k q) = (V c main_arg3 : FVec Ideal S64x64 .f32) (ix2 k q) := by
  obtain ⟨-, -, -, -, e4, e5, -⟩ := idx_facts t
  unfold iblk1
  rw [View.read_apply]
  show V c main_arg3 (((cfg1.win 2).blk t).view.emb (ix2 k q)) = V c main_arg3 (ix2 k q)
  refine congrArg (V c main_arg3) (funext fun a => Fin.ext ?_)
  match a with
  | ⟨0, _⟩ => show win1_2.index t (0 : Fin 2) * 64 + 1 * k.val = k.val; rw [e4]; omega
  | ⟨1, _⟩ => show win1_2.index t (1 : Fin 2) * 64 + 1 * q.val = q.val; rw [e5]; omega

/-- Entry (p, q) of the result window's block at point t sits at (10000·t + p, q) of the result array. -/
theorem out_emb (t : Fin cfg1.N) (p : Fin 10000) (q : Fin 64) :
    ((cfg1.win 3).blk t).view.emb (ix2 p q) = (ix2 (row t p) q : S100000x64.Idx) := by
  obtain ⟨-, -, -, -, -, -, e6, e7⟩ := idx_facts t
  refine funext fun a => Fin.ext ?_
  match a with
  | ⟨0, _⟩ => show win1_3.index t (0 : Fin 2) * 10000 + 1 * p.val = t.val * 10000 + p.val; rw [e6]; omega
  | ⟨1, _⟩ => show win1_3.index t (1 : Fin 2) * 64 + 1 * q.val = q.val; rw [e7]; omega

/-- What point t writes back is block t of the hidden layer of the whole arrays. -/
theorem flushed_eq (c : Dev nD) (t : Fin cfg1.N) :
    (dat1 V c).flushed 3 t = ((cfg1.win 3).blk t).view.read (Elt Ideal)
      (Cert.ReferenceIdeal.Layers.layer (V c main_v44) (V c main_v45) (V c main_arg3)) := by
  show (cfg1.win 3).cut (grid1.coords t) ((dat1 V c).after 3 t) = _
  rw [after1_3]
  unfold out1_3
  rw [View.canon_unit_zero hz]
  simp only [View.ld_unit_zero (S := S10000x64) hz, View.ld_unit_zero (S := S1x64) hz, View.ld_unit_zero (S := S64x64) hz]
  funext j
  obtain ⟨p, q, rfl⟩ : ∃ (p : Fin 10000) (q : Fin 64), j = ix2 p q := ⟨j 0, j 1, eq_ix2 j⟩
  show k1_pay1 (F := Ideal) (iblk1 V c 0 t) (iblk1 V c 1 t) (iblk1 V c 2 t) (ix2 p q)
    = Cert.ReferenceIdeal.Layers.layer (V c main_v44) (V c main_v45) (V c main_arg3) (((cfg1.win 3).blk t).view.emb (ix2 p q))
  rw [out_emb t p q]
  refine (pay1_apply (iblk1 V c 0 t) (iblk1 V c 1 t) (iblk1 V c 2 t) p q).trans ?_
  refine Eq.trans ?_ (Cert.ReferenceIdeal.Layers.layer_apply (V c main_v44) (V c main_v45) (V c main_arg3) (row t p) q).symm
  refine Finset.sum_congr rfl fun k _ => ?_
  rw [features_apply V c t p k, bias_apply V c t 0 k, weights_apply V c t k q]

/-- Every row of the result array lies in the block of the point that its row number divided by 10000 names. -/
theorem cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  let t : Fin cfg1.N := ⟨(i 0).val / 10000, by rw [show cfg1.N = 10 from N_1]; omega⟩
  obtain ⟨-, -, -, -, -, -, e6, e7⟩ := idx_facts t
  refine ⟨t, flush1_3 t, ?_⟩
  show i ∈ ((View.whole main_v46).slice (win1_3.rect t)).set
  rw [View.set_slice_whole, Rect.mem_set_unit]
  intro a
  match a with
  | ⟨0, _⟩ =>
    show win1_3.index t (0 : Fin 2) * 10000 ≤ (i 0).val ∧ (i 0).val < win1_3.index t (0 : Fin 2) * 10000 + 10000
    rw [e6]; show (i 0).val / 10000 * 10000 ≤ (i 0).val ∧ (i 0).val < (i 0).val / 10000 * 10000 + 10000; omega
  | ⟨1, _⟩ =>
    show win1_3.index t (1 : Fin 2) * 64 ≤ (i 1).val ∧ (i 1).val < win1_3.index t (1 : Fin 2) * 64 + 64
    rw [e7]; omega

/-- The result array after the region is the hidden layer of the three arrays the region found. -/
theorem value (c : Dev nD) :
    (dat1 V c).arrAt 3 cfg1.N = Cert.ReferenceIdeal.Layers.layer (V c main_v44) (V c main_v45) (V c main_arg3) :=
  (dat1 V c).arrAt_eq_of_cover 3 _ (fun t _ => flushed_eq V c t) (cover)

end Cert.KernelIdeal.Region1

end
-- ==== Proof.Region2.lean ====
/-
  The third region's result array as one function of the arrays the region finds.

  The aggregated features are cut into ten blocks of 10000 rows; at grid point t the body adds the bias row to block t,
  clamps below at zero, multiplies by the whole weight matrix, and the product is written back as block t of the
  result. Row p of block t is row 10000·t + p of the feature array, so the result array is the reference's hidden
  layer of the arrays the region found, entry by entry.
-/
import proofs.«144403_j61624190763180_1_alg».proof.Proof.Gen.KernelIdeal.Frame
import proofs.«144403_j61624190763180_1_alg».proof.Proof.Bodies
import proofs.«144403_j61624190763180_1_alg».proof.Proof.Layers

set_option maxRecDepth 16384

noncomputable section

namespace Cert.KernelIdeal.Region2

open Cert.KernelIdeal Cert.KernelIdeal.Gen Cert.KernelIdeal.Bodies
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the feature window and the result window move down one block per point, the
    bias row's and the weights' windows stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row p of block t, as a row of the whole array. -/
def row (t : Fin cfg2.N) (p : Fin 10000) : Fin 100000 :=
  ⟨t.val * 10000 + p.val, by have h1 := t.isLt; have h2 : cfg2.N = 10 := N_2; have h3 := p.isLt; omega⟩

/-- The feature window's block at point t holds rows 10000·t … of the aggregated features. -/
theorem features_apply (c : Dev nD) (t : Fin cfg2.N) (p : Fin 10000) (k : Fin 64) :
    (iblk2 V c 0 t : FVec Ideal S10000x64 .f32) (ix2 p k) = (V c main_v59 : FVec Ideal S100000x64 .f32) (ix2 (row t p) k) := by
  obtain ⟨e0, e1, -⟩ := idx_facts t
  unfold iblk2
  rw [View.read_apply]
  show V c main_v59 (((cfg2.win 0).blk t).view.emb (ix2 p k)) = V c main_v59 (ix2 (row t p) k)
  refine congrArg (V c main_v59) (funext fun a => Fin.ext ?_)
  match a with
  | ⟨0, _⟩ => show win2_0.index t (0 : Fin 2) * 10000 + 1 * p.val = t.val * 10000 + p.val; rw [e0]; omega
  | ⟨1, _⟩ => show win2_0.index t (1 : Fin 2) * 64 + 1 * k.val = k.val; rw [e1]; omega

/-- The bias window's block at every point is the whole bias row. -/
theorem bias_apply (c : Dev nD) (t : Fin cfg2.N) (u : Fin 1) (k : Fin 64) :
    (iblk2 V c 1 t : FVec Ideal S1x64 .f32) (ix2 u k) = (V c main_v60 : FVec Ideal S1x64 .f32) (ix2 u k) := by
  obtain ⟨-, -, e2, e3, -⟩ := idx_facts t
  unfold iblk2
  rw [View.read_apply]
  show V c main_v60 (((cfg2.win 1).blk t).view.emb (ix2 u k)) = V c main_v60 (ix2 u k)
  refine congrArg (V c main_v60) (funext fun a => Fin.ext ?_)
  match a with
  | ⟨0, _⟩ => show win2_1.index t (0 : Fin 2) * 1 + 1 * u.val = u.val; rw [e2]; omega
  | ⟨1, _⟩ => show win2_1.index t (1 : Fin 2) * 64 + 1 * k.val = k.val; rw [e3]; omega

/-- The weight window's block at every point is the whole weight matrix. -/
theorem weights_apply (c : Dev nD) (t : Fin cfg2.N) (k : Fin 64) (q : Fin 64) :
    (iblk2 V c 2 t : FVec Ideal S64x64 .f32) (ix2 k q) = (V c main_arg5 : FVec Ideal S64x64 .f32) (ix2 k q) := by
  obtain ⟨-, -, -, -, e4, e5, -⟩ := idx_facts t
  unfold iblk2
  rw [View.read_apply]
  show V c main_arg5 (((cfg2.win 2).blk t).view.emb (ix2 k q)) = V c main_arg5 (ix2 k q)
  refine congrArg (V c main_arg5) (funext fun a => Fin.ext ?_)
  match a with
  | ⟨0, _⟩ => show win2_2.index t (0 : Fin 2) * 64 + 1 * k.val = k.val; rw [e4]; omega
  | ⟨1, _⟩ => show win2_2.index t (1 : Fin 2) * 64 + 1 * q.val = q.val; rw [e5]; omega

/-- Entry (p, q) of the result window's block at point t sits at (10000·t + p, q) of the result array. -/
theorem out_emb (t : Fin cfg2.N) (p : Fin 10000) (q : Fin 64) :
    ((cfg2.win 3).blk t).view.emb (ix2 p q) = (ix2 (row t p) q : S100000x64.Idx) := by
  obtain ⟨-, -, -, -, -, -, e6, e7⟩ := idx_facts t
  refine funext fun a => Fin.ext ?_
  match a with
  | ⟨0, _⟩ => show win2_3.index t (0 : Fin 2) * 10000 + 1 * p.val = t.val * 10000 + p.val; rw [e6]; omega
  | ⟨1, _⟩ => show win2_3.index t (1 : Fin 2) * 64 + 1 * q.val = q.val; rw [e7]; omega

/-- What point t writes back is block t of the hidden layer of the whole arrays. -/
theorem flushed_eq (c : Dev nD) (t : Fin cfg2.N) :
    (dat2 V c).flushed 3 t = ((cfg2.win 3).blk t).view.read (Elt Ideal)
      (Cert.ReferenceIdeal.Layers.layer (V c main_v59) (V c main_v60) (V c main_arg5)) := by
  show (cfg2.win 3).cut (grid2.coords t) ((dat2 V c).after 3 t) = _
  rw [after2_3]
  unfold out2_3
  rw [View.canon_unit_zero hz]
  simp only [View.ld_unit_zero (S := S10000x64) hz, View.ld_unit_zero (S := S1x64) hz, View.ld_unit_zero (S := S64x64) hz]
  funext j
  obtain ⟨p, q, rfl⟩ : ∃ (p : Fin 10000) (q : Fin 64), j = ix2 p q := ⟨j 0, j 1, eq_ix2 j⟩
  show k2_pay1 (F := Ideal) (iblk2 V c 0 t) (iblk2 V c 1 t) (iblk2 V c 2 t) (ix2 p q)
    = Cert.ReferenceIdeal.Layers.layer (V c main_v59) (V c main_v60) (V c main_arg5) (((cfg2.win 3).blk t).view.emb (ix2 p q))
  rw [out_emb t p q]
  refine (pay2_apply (iblk2 V c 0 t) (iblk2 V c 1 t) (iblk2 V c 2 t) p q).trans ?_
  refine Eq.trans ?_ (Cert.ReferenceIdeal.Layers.layer_apply (V c main_v59) (V c main_v60) (V c main_arg5) (row t p) q).symm
  refine Finset.sum_congr rfl fun k _ => ?_
  rw [features_apply V c t p k, bias_apply V c t 0 k, weights_apply V c t k q]

/-- Every row of the result array lies in the block of the point that its row number divided by 10000 names. -/
theorem cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  let t : Fin cfg2.N := ⟨(i 0).val / 10000, by rw [show cfg2.N = 10 from N_2]; omega⟩
  obtain ⟨-, -, -, -, -, -, e6, e7⟩ := idx_facts t
  refine ⟨t, flush2_3 t, ?_⟩
  show i ∈ ((View.whole main_v61).slice (win2_3.rect t)).set
  rw [View.set_slice_whole, Rect.mem_set_unit]
  intro a
  match a with
  | ⟨0, _⟩ =>
    show win2_3.index t (0 : Fin 2) * 10000 ≤ (i 0).val ∧ (i 0).val < win2_3.index t (0 : Fin 2) * 10000 + 10000
    rw [e6]; show (i 0).val / 10000 * 10000 ≤ (i 0).val ∧ (i 0).val < (i 0).val / 10000 * 10000 + 10000; omega
  | ⟨1, _⟩ =>
    show win2_3.index t (1 : Fin 2) * 64 ≤ (i 1).val ∧ (i 1).val < win2_3.index t (1 : Fin 2) * 64 + 64
    rw [e7]; omega

/-- The result array after the region is the hidden layer of the three arrays the region found. -/
theorem value (c : Dev nD) :
    (dat2 V c).arrAt 3 cfg2.N = Cert.ReferenceIdeal.Layers.layer (V c main_v59) (V c main_v60) (V c main_arg5) :=
  (dat2 V c).arrAt_eq_of_cover 3 _ (fun t _ => flushed_eq V c t) (cover)

end Cert.KernelIdeal.Region2

end
-- ==== Proof.Region3.lean ====
/-
  The last region's result array as one function of the arrays the region finds.

  The aggregated features are cut into ten blocks of 10000 rows; at grid point t the body adds the bias row to block t,
  clamps below at zero, multiplies by the 64 × 1 output weights, adds the output bias's one entry, and writes the
  10000 × 1 column back as block t of the result. Row p of block t is row 10000·t + p of the feature array, so the
  result array is the reference's output layer of the arrays the region found, entry by entry.
-/
import proofs.«144403_j61624190763180_1_alg».proof.Proof.Gen.KernelIdeal.Frame
import proofs.«144403_j61624190763180_1_alg».proof.Proof.Bodies
import proofs.«144403_j61624190763180_1_alg».proof.Proof.Layers

set_option maxRecDepth 16384

noncomputable section

namespace Cert.KernelIdeal.Region3

open Cert.KernelIdeal Cert.KernelIdeal.Gen Cert.KernelIdeal.Bodies
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the feature window and the result window move down one block per point, the
    other three windows stay. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Row p of block t, as a row of the whole array. -/
def row (t : Fin cfg3.N) (p : Fin 10000) : Fin 100000 :=
  ⟨t.val * 10000 + p.val, by have h1 := t.isLt; have h2 : cfg3.N = 10 := N_3; have h3 := p.isLt; omega⟩

/-- The feature window's block at point t holds rows 10000·t … of the aggregated features. -/
theorem features_apply (c : Dev nD) (t : Fin cfg3.N) (p : Fin 10000) (k : Fin 64) :
    (iblk3 V c 0 t : FVec Ideal S10000x64 .f32) (ix2 p k) = (V c main_v74 : FVec Ideal S100000x64 .f32) (ix2 (row t p) k) := by
  obtain ⟨e0, e1, -⟩ := idx_facts t
  unfold iblk3
  rw [View.read_apply]
  show V c main_v74 (((cfg3.win 0).blk t).view.emb (ix2 p k)) = V c main_v74 (ix2 (row t p) k)
  refine congrArg (V c main_v74) (funext fun a => Fin.ext ?_)
  match a with
  | ⟨0, _⟩ => show win3_0.index t (0 : Fin 2) * 10000 + 1 * p.val = t.val * 10000 + p.val; rw [e0]; omega
  | ⟨1, _⟩ => show win3_0.index t (1 : Fin 2) * 64 + 1 * k.val = k.val; rw [e1]; omega

/-- The bias window's block at every point is the whole bias row. -/
theorem bias_apply (c : Dev nD) (t : Fin cfg3.N) (u : Fin 1) (k : Fin 64) :
    (iblk3 V c 1 t : FVec Ideal S1x64 .f32) (ix2 u k) = (V c main_v75 : FVec Ideal S1x64 .f32) (ix2 u k) := by
  obtain ⟨-, -, e2, e3, -⟩ := idx_facts t
  unfold iblk3
  rw [View.read_apply]
  show V c main_v75 (((cfg3.win 1).blk t).view.emb (ix2 u k)) = V c main_v75 (ix2 u k)
  refine congrArg (V c main_v75) (funext fun a => Fin.ext ?_)
  match a with
  | ⟨0, _⟩ => show win3_1.index t (0 : Fin 2) * 1 + 1 * u.val = u.val; rw [e2]; omega
  | ⟨1, _⟩ => show win3_1.index t (1 : Fin 2) * 64 + 1 * k.val = k.val; rw [e3]; omega

/-- The weight window's block at every point is the whole column of output weights. -/
theorem weights_apply (c : Dev nD) (t : Fin cfg3.N) (k : Fin 64) (q : Fin 1) :
    (iblk3 V c 2 t : FVec Ideal S64x1 .f32) (ix2 k q) = (V c main_arg7 : FVec Ideal S64x1 .f32) (ix2 k q) := by
  obtain ⟨-, -, -, -, e4, e5, -⟩ := idx_facts t
  unfold iblk3
  rw [View.read_apply]
  show V c main_arg7 (((cfg3.win 2).blk t).view.emb (ix2 k q)) = V c main_arg7 (ix2 k q)
  refine congrArg (V c main_arg7) (funext fun a => Fin.ext ?_)
  match a with
  | ⟨0, _⟩ => show win3_2.index t (0 : Fin 2) * 64 + 1 * k.val = k.val; rw [e4]; omega
  | ⟨1, _⟩ => show win3_2.index t (1 : Fin 2) * 1 + 1 * q.val = q.val; rw [e5]; omega

/-- The output bias's window at every point is its one entry. -/
theorem outBias_apply (c : Dev nD) (t : Fin cfg3.N) (u : Fin 1) (q : Fin 1) :
    (iblk3 V c 3 t : FVec Ideal S1x1 .f32) (ix2 u q) = (V c main_v76 : FVec Ideal S1x1 .f32) (ix2 u q) := by
  obtain ⟨-, -, -, -, -, -, e6, e7, -⟩ := idx_facts t
  unfold iblk3
  rw [View.read_apply]
  show V c main_v76 (((cfg3.win 3).blk t).view.emb (ix2 u q)) = V c main_v76 (ix2 u q)
  refine congrArg (V c main_v76) (funext fun a => Fin.ext ?_)
  match a with
  | ⟨0, _⟩ => show win3_3.index t (0 : Fin 2) * 1 + 1 * u.val = u.val; rw [e6]; omega
  | ⟨1, _⟩ => show win3_3.index t (1 : Fin 2) * 1 + 1 * q.val = q.val; rw [e7]; omega

/-- Entry (p, q) of the result window's block at point t sits at (10000·t + p, q) of the result array. -/
theorem out_emb (t : Fin cfg3.N) (p : Fin 10000) (q : Fin 1) :
    ((cfg3.win 4).blk t).view.emb (ix2 p q) = (ix2 (row t p) q : S100000x1.Idx) := by
  obtain ⟨-, -, -, -, -, -, -, -, e8, e9⟩ := idx_facts t
  refine funext fun a => Fin.ext ?_
  match a with
  | ⟨0, _⟩ => show win3_4.index t (0 : Fin 2) * 10000 + 1 * p.val = t.val * 10000 + p.val; rw [e8]; omega
  | ⟨1, _⟩ => show win3_4.index t (1 : Fin 2) * 1 + 1 * q.val = q.val; rw [e9]; omega

/-- What point t writes back is block t of the output layer of the whole arrays. -/
theorem flushed_eq (c : Dev nD) (t : Fin cfg3.N) :
    (dat3 V c).flushed 4 t = ((cfg3.win 4).blk t).view.read (Elt Ideal)
      (Cert.ReferenceIdeal.Layers.outLayer (V c main_v74) (V c main_v75) (V c main_arg7) (V c main_v76)) := by
  show (cfg3.win 4).cut (grid3.coords t) ((dat3 V c).after 4 t) = _
  rw [after3_4]
  unfold out3_4
  rw [View.canon_unit_zero hz]
  simp only [View.ld_unit_zero (S := S10000x64) hz, View.ld_unit_zero (S := S1x64) hz, View.ld_unit_zero (S := S64x1) hz,
    View.ld_unit_zero (S := S1x1) hz]
  funext j
  obtain ⟨p, q, rfl⟩ : ∃ (p : Fin 10000) (q : Fin 1), j = ix2 p q := ⟨j 0, j 1, eq_ix2 j⟩
  show k3_pay1 (F := Ideal) (iblk3 V c 0 t) (iblk3 V c 1 t) (iblk3 V c 2 t) (iblk3 V c 3 t) (ix2 p q)
    = Cert.ReferenceIdeal.Layers.outLayer (V c main_v74) (V c main_v75) (V c main_arg7) (V c main_v76)
        (((cfg3.win 4).blk t).view.emb (ix2 p q))
  rw [out_emb t p q]
  refine (pay3_apply (iblk3 V c 0 t) (iblk3 V c 1 t) (iblk3 V c 2 t) (iblk3 V c 3 t) p q).trans ?_
  refine Eq.trans ?_ (Cert.ReferenceIdeal.Layers.outLayer_apply (V c main_v74) (V c main_v75) (V c main_arg7) (V c main_v76) (row t p) q).symm
  rw [outBias_apply V c t 0 q]
  refine congrArg (· + (V c main_v76 : FVec Ideal S1x1 .f32) (ix2 (0 : Fin 1) q)) ?_
  refine Finset.sum_congr rfl fun k _ => ?_
  rw [features_apply V c t p k, bias_apply V c t 0 k, weights_apply V c t k q]

/-- Every row of the result array lies in the block of the point that its row number divided by 10000 names. -/
theorem cover (i : S100000x1.Idx) :
    ∃ t : Fin cfg3.N, (cfg3.win 4).flush t = true ∧ i ∈ ((cfg3.win 4).blk t).view.set := by
  have hi0 : (i 0).val < 100000 := (i 0).isLt
  have hi1 : (i 1).val < 1 := (i 1).isLt
  let t : Fin cfg3.N := ⟨(i 0).val / 10000, by rw [show cfg3.N = 10 from N_3]; omega⟩
  obtain ⟨-, -, -, -, -, -, -, -, e8, e9⟩ := idx_facts t
  refine ⟨t, flush3_4 t, ?_⟩
  show i ∈ ((View.whole main_v77).slice (win3_4.rect t)).set
  rw [View.set_slice_whole, Rect.mem_set_unit]
  intro a
  match a with
  | ⟨0, _⟩ =>
    show win3_4.index t (0 : Fin 2) * 10000 ≤ (i 0).val ∧ (i 0).val < win3_4.index t (0 : Fin 2) * 10000 + 10000
    rw [e8]; show (i 0).val / 10000 * 10000 ≤ (i 0).val ∧ (i 0).val < (i 0).val / 10000 * 10000 + 10000; omega
  | ⟨1, _⟩ =>
    show win3_4.index t (1 : Fin 2) * 1 ≤ (i 1).val ∧ (i 1).val < win3_4.index t (1 : Fin 2) * 1 + 1
    rw [e9]; omega

/-- The result array after the region is the output layer of the four arrays the region found. -/
theorem value (c : Dev nD) :
    (dat3 V c).arrAt 4 cfg3.N
      = Cert.ReferenceIdeal.Layers.outLayer (V c main_v74) (V c main_v75) (V c main_arg7) (V c main_v76) :=
  (dat3 V c).arrAt_eq_of_cover 4 _ (fun t _ => flushed_eq V c t) (cover)

end Cert.KernelIdeal.Region3

end
-- ==== Proof.Boundaries.lean ====
/-
  The idealized kernel's buffers, boundary by boundary, as the reference's stages of the arguments.

  Between the launch and the return the program crosses ten boundaries: three host stretches (the graph's
  bookkeeping: sources, targets and the symmetric normalisation's edge weights), then a region and a host stretch
  alternating. At each boundary the buffers the next segment reads hold:
  * an argument: what was launched, since nothing writes an argument;
  * the sources, the targets, the edge weights: the same functions of the edge list the reference computes, written
    once and never again;
  * a region's result: the reference's product (or hidden layer, or output layer) of what the region found;
  * an aggregation's result: the reference's scatter of the gathered, weighted rows of the region's result — the same
    host operations applied to equal operands.
  Chaining these from the launch gives the result buffer as the reference's last stage of the arguments.
-/
import proofs.«144403_j61624190763180_1_alg».proof.Proof.Gen.KernelIdeal.Frame
import proofs.«144403_j61624190763180_1_alg».proof.Proof.ReadP
import proofs.«144403_j61624190763180_1_alg».proof.Proof.Layers
import proofs.«144403_j61624190763180_1_alg».proof.Proof.Region0
import proofs.«144403_j61624190763180_1_alg».proof.Proof.Region1
import proofs.«144403_j61624190763180_1_alg».proof.Proof.Region2
import proofs.«144403_j61624190763180_1_alg».proof.Proof.Region3
import proofs.«144403_j61624190763180_1_alg».proof.Proof.LibRowBroadcasts
import Idealize.ShloMosaic.Lib.StableHlo.Run

set_option maxRecDepth 16384

noncomputable section

namespace Cert.KernelIdeal.Bounds

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-- A buffer that no operation of a host stretch writes holds after the stretch what it held before: each
    operation's one written buffer is another one. -/
macro "host_keeps" ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-! ## The arguments, where they are read -/

/-- Argument 0 is still as launched when it is read: nothing before that point writes it. -/
theorem arg0_at3 : W3 m ρ c (Proc.devRef .tc main_arg0) = m ((c : Thread nD τ).loc main_arg0) :=
  calc W3 m ρ c (Proc.devRef .tc main_arg0)
    _ = W2 m ρ c (Proc.devRef .tc main_arg0) := by host_keeps hostOps0_2
    _ = W1 m ρ c (Proc.devRef .tc main_arg0) := by host_keeps hostOps0_1
    _ = W0 m ρ c (Proc.devRef .tc main_arg0) := by host_keeps hostOps0
    _ = m ((c : Thread nD τ).loc main_arg0) := rfl

/-- Argument 1 is still as launched when it is read: nothing before that point writes it. -/
theorem arg1_at3 : W3 m ρ c (Proc.devRef .tc main_arg1) = m ((c : Thread nD τ).loc main_arg1) :=
  calc W3 m ρ c (Proc.devRef .tc main_arg1)
    _ = W2 m ρ c (Proc.devRef .tc main_arg1) := by host_keeps hostOps0_2
    _ = W1 m ρ c (Proc.devRef .tc main_arg1) := by host_keeps hostOps0_1
    _ = W0 m ρ c (Proc.devRef .tc main_arg1) := by host_keeps hostOps0
    _ = m ((c : Thread nD τ).loc main_arg1) := rfl

/-- Argument 2 is still as launched when it is read: nothing before that point writes it. -/
theorem arg2_at4 : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := by host_keeps hostOps0_2
    _ = W1 m ρ c (Proc.devRef .tc main_arg2) := by host_keeps hostOps0_1
    _ = W0 m ρ c (Proc.devRef .tc main_arg2) := by host_keeps hostOps0
    _ = m ((c : Thread nD τ).loc main_arg2) := rfl

/-- Argument 3 is still as launched when it is read: nothing before that point writes it. -/
theorem arg3_at5 : W5 m ρ c (Proc.devRef .tc main_arg3) = m ((c : Thread nD τ).loc main_arg3) :=
  calc W5 m ρ c (Proc.devRef .tc main_arg3)
    _ = W4 m ρ c (Proc.devRef .tc main_arg3) := by host_keeps hostOps1
    _ = W3 m ρ c (Proc.devRef .tc main_arg3) := W4_of_ne m ρ c main_arg3 (by decide)
    _ = W2 m ρ c (Proc.devRef .tc main_arg3) := by host_keeps hostOps0_2
    _ = W1 m ρ c (Proc.devRef .tc main_arg3) := by host_keeps hostOps0_1
    _ = W0 m ρ c (Proc.devRef .tc main_arg3) := by host_keeps hostOps0
    _ = m ((c : Thread nD τ).loc main_arg3) := rfl

/-- Argument 4 is still as launched when it is read: nothing before that point writes it. -/
theorem arg4_at6 : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := by host_keeps hostOps1
    _ = W3 m ρ c (Proc.devRef .tc main_arg4) := W4_of_ne m ρ c main_arg4 (by decide)
    _ = W2 m ρ c (Proc.devRef .tc main_arg4) := by host_keeps hostOps0_2
    _ = W1 m ρ c (Proc.devRef .tc main_arg4) := by host_keeps hostOps0_1
    _ = W0 m ρ c (Proc.devRef .tc main_arg4) := by host_keeps hostOps0
    _ = m ((c : Thread nD τ).loc main_arg4) := rfl

/-- Argument 5 is still as launched when it is read: nothing before that point writes it. -/
theorem arg5_at7 : W7 m ρ c (Proc.devRef .tc main_arg5) = m ((c : Thread nD τ).loc main_arg5) :=
  calc W7 m ρ c (Proc.devRef .tc main_arg5)
    _ = W6 m ρ c (Proc.devRef .tc main_arg5) := by host_keeps hostOps2
    _ = W5 m ρ c (Proc.devRef .tc main_arg5) := W6_of_ne m ρ c main_arg5 (by decide)
    _ = W4 m ρ c (Proc.devRef .tc main_arg5) := by host_keeps hostOps1
    _ = W3 m ρ c (Proc.devRef .tc main_arg5) := W4_of_ne m ρ c main_arg5 (by decide)
    _ = W2 m ρ c (Proc.devRef .tc main_arg5) := by host_keeps hostOps0_2
    _ = W1 m ρ c (Proc.devRef .tc main_arg5) := by host_keeps hostOps0_1
    _ = W0 m ρ c (Proc.devRef .tc main_arg5) := by host_keeps hostOps0
    _ = m ((c : Thread nD τ).loc main_arg5) := rfl

/-- Argument 6 is still as launched when it is read: nothing before that point writes it. -/
theorem arg6_at8 : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := by host_keeps hostOps2
    _ = W5 m ρ c (Proc.devRef .tc main_arg6) := W6_of_ne m ρ c main_arg6 (by decide)
    _ = W4 m ρ c (Proc.devRef .tc main_arg6) := by host_keeps hostOps1
    _ = W3 m ρ c (Proc.devRef .tc main_arg6) := W4_of_ne m ρ c main_arg6 (by decide)
    _ = W2 m ρ c (Proc.devRef .tc main_arg6) := by host_keeps hostOps0_2
    _ = W1 m ρ c (Proc.devRef .tc main_arg6) := by host_keeps hostOps0_1
    _ = W0 m ρ c (Proc.devRef .tc main_arg6) := by host_keeps hostOps0
    _ = m ((c : Thread nD τ).loc main_arg6) := rfl

/-- Argument 8 is still as launched when it is read: nothing before that point writes it. -/
theorem arg8_at8 : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := by host_keeps hostOps2
    _ = W5 m ρ c (Proc.devRef .tc main_arg8) := W6_of_ne m ρ c main_arg8 (by decide)
    _ = W4 m ρ c (Proc.devRef .tc main_arg8) := by host_keeps hostOps1
    _ = W3 m ρ c (Proc.devRef .tc main_arg8) := W4_of_ne m ρ c main_arg8 (by decide)
    _ = W2 m ρ c (Proc.devRef .tc main_arg8) := by host_keeps hostOps0_2
    _ = W1 m ρ c (Proc.devRef .tc main_arg8) := by host_keeps hostOps0_1
    _ = W0 m ρ c (Proc.devRef .tc main_arg8) := by host_keeps hostOps0
    _ = m ((c : Thread nD τ).loc main_arg8) := rfl

/-- Argument 7 is still as launched when it is read: nothing before that point writes it. -/
theorem arg7_at9 : W9 m ρ c (Proc.devRef .tc main_arg7) = m ((c : Thread nD τ).loc main_arg7) :=
  calc W9 m ρ c (Proc.devRef .tc main_arg7)
    _ = W8 m ρ c (Proc.devRef .tc main_arg7) := by host_keeps hostOps3
    _ = W7 m ρ c (Proc.devRef .tc main_arg7) := W8_of_ne m ρ c main_arg7 (by decide)
    _ = W6 m ρ c (Proc.devRef .tc main_arg7) := by host_keeps hostOps2
    _ = W5 m ρ c (Proc.devRef .tc main_arg7) := W6_of_ne m ρ c main_arg7 (by decide)
    _ = W4 m ρ c (Proc.devRef .tc main_arg7) := by host_keeps hostOps1
    _ = W3 m ρ c (Proc.devRef .tc main_arg7) := W4_of_ne m ρ c main_arg7 (by decide)
    _ = W2 m ρ c (Proc.devRef .tc main_arg7) := by host_keeps hostOps0_2
    _ = W1 m ρ c (Proc.devRef .tc main_arg7) := by host_keeps hostOps0_1
    _ = W0 m ρ c (Proc.devRef .tc main_arg7) := by host_keeps hostOps0
    _ = m ((c : Thread nD τ).loc main_arg7) := rfl

/-! ## The graph's bookkeeping: the first three host stretches -/

/-- The message sources after the first stretch: the edge list's first row, then every node once. -/
theorem src1 : W1 m ρ c (Proc.devRef .tc main_v3) = Cert.ReferenceIdeal.ReadP.val_main_v3 (F := Ideal) (m ((c : Thread nD τ).loc main_arg9)) := by
  dsimp only [W1, hostOps0]
  after_results
  rfl

/-- The aggregation targets after the first stretch: the edge list's second row, then every node once. -/
theorem dst1 : W1 m ρ c (Proc.devRef .tc main_v6) = Cert.ReferenceIdeal.ReadP.val_main_v6 (F := Ideal) (m ((c : Thread nD τ).loc main_arg9)) := by
  dsimp only [W1, hostOps0]
  after_results
  rfl

/-- Which nodes have a positive degree (every node does: it is its own neighbour). -/
theorem pos1 : W1 m ρ c (Proc.devRef .tc main_v12) = Cert.ReferenceIdeal.ReadP.val_main_v12 (F := Ideal) (m ((c : Thread nD τ).loc main_arg9)) := by
  dsimp only [W1, hostOps0]
  after_results
  rfl

/-- Each node's degree to the power −1/2. -/
theorem pow1 : W1 m ρ c (Proc.devRef .tc main_v14) = Cert.ReferenceIdeal.ReadP.val_main_v14 (F := Ideal) (m ((c : Thread nD τ).loc main_arg9)) := by
  dsimp only [W1, hostOps0]
  after_results
  rfl

/-- The zero the degree's inverse root falls back to. -/
theorem zero1 : W1 m ρ c (Proc.devRef .tc main_cst_3) = Cert.ReferenceIdeal.ReadP.val_main_cst_3 (F := Ideal) := by
  dsimp only [W1, hostOps0]
  after_results
  rfl

/-- Each node's inverse root degree (zero where the degree is not positive): the selecting stretch read from the
    contents the first stretch left, whatever else those contents hold. -/
theorem dinv2 : W2 m ρ c (Proc.devRef .tc main_v15) = Cert.ReferenceIdeal.ReadP.val_main_v15 (F := Ideal) (m ((c : Thread nD τ).loc main_arg9)) := by
  have e12 := pos1 m ρ c
  have e14 := pow1 m ρ c
  have e3 := zero1 m ρ c
  dsimp only [W2, hostOps0_1]
  generalize W1 m ρ c = Wp at e12 e14 e3 ⊢
  after_results
  show select (Wp (Proc.devRef .tc main_v12)) (Wp (Proc.devRef .tc main_v14))
      (broadcastInDim S100000 ![] bcast_S_S100000 (Wp (Proc.devRef .tc main_cst_3))) = _
  rw [e12, e14, e3]
  rfl

/-- The message sources are written once, by the first stretch, and read unchanged from then on. -/
theorem src2 : W2 m ρ c (Proc.devRef .tc main_v3) = Cert.ReferenceIdeal.ReadP.val_main_v3 (F := Ideal) (m ((c : Thread nD τ).loc main_arg9)) :=
  calc W2 m ρ c (Proc.devRef .tc main_v3)
    _ = W1 m ρ c (Proc.devRef .tc main_v3) := by host_keeps hostOps0_1
    _ = Cert.ReferenceIdeal.ReadP.val_main_v3 (F := Ideal) (m ((c : Thread nD τ).loc main_arg9)) := src1 m ρ c

/-- The aggregation targets are written once, by the first stretch, and read unchanged from then on. -/
theorem dst2 : W2 m ρ c (Proc.devRef .tc main_v6) = Cert.ReferenceIdeal.ReadP.val_main_v6 (F := Ideal) (m ((c : Thread nD τ).loc main_arg9)) :=
  calc W2 m ρ c (Proc.devRef .tc main_v6)
    _ = W1 m ρ c (Proc.devRef .tc main_v6) := by host_keeps hostOps0_1
    _ = Cert.ReferenceIdeal.ReadP.val_main_v6 (F := Ideal) (m ((c : Thread nD τ).loc main_arg9)) := dst1 m ρ c

/-- The message sources (edge sources, then every node once) are written once, by the first stretch, and read unchanged from then on. -/
theorem src4 : W4 m ρ c (Proc.devRef .tc main_v3) = Cert.ReferenceIdeal.ReadP.val_main_v3 (F := Ideal) (m ((c : Thread nD τ).loc main_arg9)) :=
  calc W4 m ρ c (Proc.devRef .tc main_v3)
    _ = W3 m ρ c (Proc.devRef .tc main_v3) := W4_of_ne m ρ c main_v3 (by decide)
    _ = W2 m ρ c (Proc.devRef .tc main_v3) := by host_keeps hostOps0_2
    _ = W1 m ρ c (Proc.devRef .tc main_v3) := by host_keeps hostOps0_1
    _ = Cert.ReferenceIdeal.ReadP.val_main_v3 (F := Ideal) (m ((c : Thread nD τ).loc main_arg9)) := src1 m ρ c

/-- The message sources (edge sources, then every node once) are written once, by the first stretch, and read unchanged from then on. -/
theorem src6 : W6 m ρ c (Proc.devRef .tc main_v3) = Cert.ReferenceIdeal.ReadP.val_main_v3 (F := Ideal) (m ((c : Thread nD τ).loc main_arg9)) :=
  calc W6 m ρ c (Proc.devRef .tc main_v3)
    _ = W5 m ρ c (Proc.devRef .tc main_v3) := W6_of_ne m ρ c main_v3 (by decide)
    _ = W4 m ρ c (Proc.devRef .tc main_v3) := by host_keeps hostOps1
    _ = W3 m ρ c (Proc.devRef .tc main_v3) := W4_of_ne m ρ c main_v3 (by decide)
    _ = W2 m ρ c (Proc.devRef .tc main_v3) := by host_keeps hostOps0_2
    _ = W1 m ρ c (Proc.devRef .tc main_v3) := by host_keeps hostOps0_1
    _ = Cert.ReferenceIdeal.ReadP.val_main_v3 (F := Ideal) (m ((c : Thread nD τ).loc main_arg9)) := src1 m ρ c

/-- The message sources (edge sources, then every node once) are written once, by the first stretch, and read unchanged from then on. -/
theorem src8 : W8 m ρ c (Proc.devRef .tc main_v3) = Cert.ReferenceIdeal.ReadP.val_main_v3 (F := Ideal) (m ((c : Thread nD τ).loc main_arg9)) :=
  calc W8 m ρ c (Proc.devRef .tc main_v3)
    _ = W7 m ρ c (Proc.devRef .tc main_v3) := W8_of_ne m ρ c main_v3 (by decide)
    _ = W6 m ρ c (Proc.devRef .tc main_v3) := by host_keeps hostOps2
    _ = W5 m ρ c (Proc.devRef .tc main_v3) := W6_of_ne m ρ c main_v3 (by decide)
    _ = W4 m ρ c (Proc.devRef .tc main_v3) := by host_keeps hostOps1
    _ = W3 m ρ c (Proc.devRef .tc main_v3) := W4_of_ne m ρ c main_v3 (by decide)
    _ = W2 m ρ c (Proc.devRef .tc main_v3) := by host_keeps hostOps0_2
    _ = W1 m ρ c (Proc.devRef .tc main_v3) := by host_keeps hostOps0_1
    _ = Cert.ReferenceIdeal.ReadP.val_main_v3 (F := Ideal) (m ((c : Thread nD τ).loc main_arg9)) := src1 m ρ c

/-- The aggregation targets (edge targets, then every node once) are written once, by the first stretch, and read unchanged from then on. -/
theorem dst4 : W4 m ρ c (Proc.devRef .tc main_v6) = Cert.ReferenceIdeal.ReadP.val_main_v6 (F := Ideal) (m ((c : Thread nD τ).loc main_arg9)) :=
  calc W4 m ρ c (Proc.devRef .tc main_v6)
    _ = W3 m ρ c (Proc.devRef .tc main_v6) := W4_of_ne m ρ c main_v6 (by decide)
    _ = W2 m ρ c (Proc.devRef .tc main_v6) := by host_keeps hostOps0_2
    _ = W1 m ρ c (Proc.devRef .tc main_v6) := by host_keeps hostOps0_1
    _ = Cert.ReferenceIdeal.ReadP.val_main_v6 (F := Ideal) (m ((c : Thread nD τ).loc main_arg9)) := dst1 m ρ c

/-- The aggregation targets (edge targets, then every node once) are written once, by the first stretch, and read unchanged from then on. -/
theorem dst6 : W6 m ρ c (Proc.devRef .tc main_v6) = Cert.ReferenceIdeal.ReadP.val_main_v6 (F := Ideal) (m ((c : Thread nD τ).loc main_arg9)) :=
  calc W6 m ρ c (Proc.devRef .tc main_v6)
    _ = W5 m ρ c (Proc.devRef .tc main_v6) := W6_of_ne m ρ c main_v6 (by decide)
    _ = W4 m ρ c (Proc.devRef .tc main_v6) := by host_keeps hostOps1
    _ = W3 m ρ c (Proc.devRef .tc main_v6) := W4_of_ne m ρ c main_v6 (by decide)
    _ = W2 m ρ c (Proc.devRef .tc main_v6) := by host_keeps hostOps0_2
    _ = W1 m ρ c (Proc.devRef .tc main_v6) := by host_keeps hostOps0_1
    _ = Cert.ReferenceIdeal.ReadP.val_main_v6 (F := Ideal) (m ((c : Thread nD τ).loc main_arg9)) := dst1 m ρ c

/-- The aggregation targets (edge targets, then every node once) are written once, by the first stretch, and read unchanged from then on. -/
theorem dst8 : W8 m ρ c (Proc.devRef .tc main_v6) = Cert.ReferenceIdeal.ReadP.val_main_v6 (F := Ideal) (m ((c : Thread nD τ).loc main_arg9)) :=
  calc W8 m ρ c (Proc.devRef .tc main_v6)
    _ = W7 m ρ c (Proc.devRef .tc main_v6) := W8_of_ne m ρ c main_v6 (by decide)
    _ = W6 m ρ c (Proc.devRef .tc main_v6) := by host_keeps hostOps2
    _ = W5 m ρ c (Proc.devRef .tc main_v6) := W6_of_ne m ρ c main_v6 (by decide)
    _ = W4 m ρ c (Proc.devRef .tc main_v6) := by host_keeps hostOps1
    _ = W3 m ρ c (Proc.devRef .tc main_v6) := W4_of_ne m ρ c main_v6 (by decide)
    _ = W2 m ρ c (Proc.devRef .tc main_v6) := by host_keeps hostOps0_2
    _ = W1 m ρ c (Proc.devRef .tc main_v6) := by host_keeps hostOps0_1
    _ = Cert.ReferenceIdeal.ReadP.val_main_v6 (F := Ideal) (m ((c : Thread nD τ).loc main_arg9)) := dst1 m ρ c

set_option maxHeartbeats 16000000 in
/-- The edge weights: the product of the two endpoints' inverse root degrees, every endpoint index wrapped once
    when negative — the third stretch read from the contents the second left. -/
theorem nrm3 : W3 m ρ c (Proc.devRef .tc main_v30) = Cert.ReferenceIdeal.ReadP.val_main_v30 (F := Ideal) (m ((c : Thread nD τ).loc main_arg9)) := by
  have e15 := dinv2 m ρ c
  have e3 := src2 m ρ c
  have e6 := dst2 m ρ c
  dsimp only [W3, hostOps0_2]
  generalize W2 m ρ c = Wp at e15 e3 e6 ⊢
  after_results
  rw [e15, e3, e6]
  rfl

/-- The edge weights are written once, before the first region, and read unchanged from then on. -/
theorem nrm4 : W4 m ρ c (Proc.devRef .tc main_v30) = Cert.ReferenceIdeal.ReadP.val_main_v30 (F := Ideal) (m ((c : Thread nD τ).loc main_arg9)) :=
  calc W4 m ρ c (Proc.devRef .tc main_v30)
    _ = W3 m ρ c (Proc.devRef .tc main_v30) := W4_of_ne m ρ c main_v30 (by decide)
    _ = Cert.ReferenceIdeal.ReadP.val_main_v30 (F := Ideal) (m ((c : Thread nD τ).loc main_arg9)) := nrm3 m ρ c

/-- The edge weights are written once, before the first region, and read unchanged from then on. -/
theorem nrm6 : W6 m ρ c (Proc.devRef .tc main_v30) = Cert.ReferenceIdeal.ReadP.val_main_v30 (F := Ideal) (m ((c : Thread nD τ).loc main_arg9)) :=
  calc W6 m ρ c (Proc.devRef .tc main_v30)
    _ = W5 m ρ c (Proc.devRef .tc main_v30) := W6_of_ne m ρ c main_v30 (by decide)
    _ = W4 m ρ c (Proc.devRef .tc main_v30) := by host_keeps hostOps1
    _ = W3 m ρ c (Proc.devRef .tc main_v30) := W4_of_ne m ρ c main_v30 (by decide)
    _ = Cert.ReferenceIdeal.ReadP.val_main_v30 (F := Ideal) (m ((c : Thread nD τ).loc main_arg9)) := nrm3 m ρ c

/-- The edge weights are written once, before the first region, and read unchanged from then on. -/
theorem nrm8 : W8 m ρ c (Proc.devRef .tc main_v30) = Cert.ReferenceIdeal.ReadP.val_main_v30 (F := Ideal) (m ((c : Thread nD τ).loc main_arg9)) :=
  calc W8 m ρ c (Proc.devRef .tc main_v30)
    _ = W7 m ρ c (Proc.devRef .tc main_v30) := W8_of_ne m ρ c main_v30 (by decide)
    _ = W6 m ρ c (Proc.devRef .tc main_v30) := by host_keeps hostOps2
    _ = W5 m ρ c (Proc.devRef .tc main_v30) := W6_of_ne m ρ c main_v30 (by decide)
    _ = W4 m ρ c (Proc.devRef .tc main_v30) := by host_keeps hostOps1
    _ = W3 m ρ c (Proc.devRef .tc main_v30) := W4_of_ne m ρ c main_v30 (by decide)
    _ = Cert.ReferenceIdeal.ReadP.val_main_v30 (F := Ideal) (m ((c : Thread nD τ).loc main_arg9)) := nrm3 m ρ c

/-! ## The first layer -/

/-- The first region's result: the node features times the first weight matrix. -/
theorem out0 : W4 m ρ c (Proc.devRef .tc main_v31) = Cert.ReferenceIdeal.ReadP.val_main_v31 (F := Ideal) (m ((c : Thread nD τ).loc main_arg0)) (m ((c : Thread nD τ).loc main_arg1)) := by
  refine (W4_arr m ρ c 2).trans ((Cert.KernelIdeal.Region0.value (V3 m ρ) c).trans ?_)
  show Cert.ReferenceIdeal.ReadP.val_main_v31 (F := Ideal) (W3 m ρ c (Proc.devRef .tc main_arg0)) (W3 m ρ c (Proc.devRef .tc main_arg1)) = _
  rw [arg0_at3 m ρ c, arg1_at3 m ρ c]

set_option maxHeartbeats 16000000 in
/-- The first aggregation: each target's sum of its sources' rows, each weighted by its edge. -/
theorem agg1 : W5 m ρ c (Proc.devRef .tc main_v44) = Cert.ReferenceIdeal.ReadP.val_main_v44 (F := Ideal) (m ((c : Thread nD τ).loc main_arg0)) (m ((c : Thread nD τ).loc main_arg1)) (m ((c : Thread nD τ).loc main_arg9)) := by
  dsimp only [W5, hostOps1]
  after_results
  rw [out0 m ρ c, src4 m ρ c, dst4 m ρ c, nrm4 m ρ c]
  rfl

/-- The first bias as a row: a vector given a leading unit axis, by either spelling. -/
theorem bias1 : W5 m ρ c (Proc.devRef .tc main_v45) = Cert.ReferenceIdeal.ReadP.val_main_v45 (F := Ideal) (m ((c : Thread nD τ).loc main_arg2)) := by
  dsimp only [W5, hostOps1]
  after_results
  rw [arg2_at4 m ρ c]
  exact Cert.Lib.Rows.castRow_eq_dimRow _ _ _

/-! ## The second layer -/

/-- The second region's result: the hidden layer of the first aggregation. -/
theorem out1 : W6 m ρ c (Proc.devRef .tc main_v46) = Cert.ReferenceIdeal.ReadP.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg9)) := by
  refine (W6_arr m ρ c 3).trans ((Cert.KernelIdeal.Region1.value (V5 m ρ) c).trans ?_)
  show Cert.ReferenceIdeal.Layers.layer (W5 m ρ c (Proc.devRef .tc main_v44)) (W5 m ρ c (Proc.devRef .tc main_v45)) (W5 m ρ c (Proc.devRef .tc main_arg3)) = _
  rw [agg1 m ρ c, bias1 m ρ c, arg3_at5 m ρ c, Cert.ReferenceIdeal.Layers.v49_eq]

set_option maxHeartbeats 16000000 in
/-- The second aggregation. -/
theorem agg2 : W7 m ρ c (Proc.devRef .tc main_v59) = Cert.ReferenceIdeal.ReadP.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg9)) := by
  dsimp only [W7, hostOps2]
  after_results
  rw [out1 m ρ c, src6 m ρ c, dst6 m ρ c, nrm6 m ρ c]
  rfl

/-- The second bias as a row. -/
theorem bias2 : W7 m ρ c (Proc.devRef .tc main_v60) = Cert.ReferenceIdeal.ReadP.val_main_v63 (F := Ideal) (m ((c : Thread nD τ).loc main_arg4)) := by
  dsimp only [W7, hostOps2]
  after_results
  rw [arg4_at6 m ρ c]
  exact Cert.Lib.Rows.castRow_eq_dimRow _ _ _

/-! ## The third layer -/

/-- The third region's result: the hidden layer of the second aggregation. -/
theorem out2 : W8 m ρ c (Proc.devRef .tc main_v61)
    = Cert.ReferenceIdeal.ReadP.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) := by
  refine (W8_arr m ρ c 3).trans ((Cert.KernelIdeal.Region2.value (V7 m ρ) c).trans ?_)
  show Cert.ReferenceIdeal.Layers.layer (W7 m ρ c (Proc.devRef .tc main_v59)) (W7 m ρ c (Proc.devRef .tc main_v60)) (W7 m ρ c (Proc.devRef .tc main_arg5)) = _
  rw [agg2 m ρ c, bias2 m ρ c, arg5_at7 m ρ c, Cert.ReferenceIdeal.Layers.v67_eq]

set_option maxHeartbeats 16000000 in
/-- The third aggregation. -/
theorem agg3 : W9 m ρ c (Proc.devRef .tc main_v74)
    = Cert.ReferenceIdeal.ReadP.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) := by
  dsimp only [W9, hostOps3]
  after_results
  rw [out2 m ρ c, src8 m ρ c, dst8 m ρ c, nrm8 m ρ c]
  rfl

/-- The third bias as a row. -/
theorem bias3 : W9 m ρ c (Proc.devRef .tc main_v75) = Cert.ReferenceIdeal.ReadP.val_main_v81 (F := Ideal) (m ((c : Thread nD τ).loc main_arg6)) := by
  dsimp only [W9, hostOps3]
  after_results
  rw [arg6_at8 m ρ c]
  exact Cert.Lib.Rows.castRow_eq_dimRow _ _ _

/-- The output bias as a 1 × 1 array. -/
theorem obias3 : W9 m ρ c (Proc.devRef .tc main_v76) = Cert.ReferenceIdeal.ReadP.val_main_v86 (F := Ideal) (m ((c : Thread nD τ).loc main_arg8)) := by
  dsimp only [W9, hostOps3]
  after_results
  rw [arg8_at8 m ρ c]
  exact Cert.Lib.Rows.castRow_eq_dimRow _ _ _

/-! ## The result -/

/-- The result buffer at the last boundary is the reference's last stage of the arguments. -/
theorem result : W10 m ρ c (Proc.devRef .tc main_v77)
    = Cert.ReferenceIdeal.ReadP.val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W10_arr m ρ c 4).trans ((Cert.KernelIdeal.Region3.value (V9 m ρ) c).trans ?_)
  show Cert.ReferenceIdeal.Layers.outLayer (W9 m ρ c (Proc.devRef .tc main_v74)) (W9 m ρ c (Proc.devRef .tc main_v75)) (W9 m ρ c (Proc.devRef .tc main_arg7)) (W9 m ρ c (Proc.devRef .tc main_v76)) = _
  rw [agg3 m ρ c, bias3 m ρ c, arg7_at9 m ρ c, obias3 m ρ c, Cert.ReferenceIdeal.Layers.v88_eq]

end Cert.KernelIdeal.Bounds

end
-- ==== Proof.lean ====
/-
  The certificate of a three-layer graph convolution network: the tiled kernel program against the plain reference.

  Both programs compute, from the node features x, the edge list and the weights,
      out = relu(Â · relu(Â · relu(Â · (x W₁) + b₁) W₂ + b₂) W₃ + b₃) W_f + b_f,
  where Â gathers each edge's source row, scales it by the edge's weight (the product of the two endpoints' inverse
  root degrees, self loops added) and sums the rows at the edge's target. The graph bookkeeping and the three
  aggregations are the same host operations in both programs. They differ in the dense steps: the reference forms
  each product over the whole 100000-row array and applies bias and clamp as separate array operations; the kernel
  cuts the rows into ten blocks and, per block, adds the bias, clamps and multiplies in one body, rounding the factors
  to a narrower format on the way into the product. Over the exact values the rounding is the identity and a product
  accumulated onto zeros is the plain sum over the hidden axis, so every block of every product is the whole product's
  block, and the two results are one function of the arguments. No law beyond that is used: the sums are the same sums
  in the same order, so nothing here needs the inputs to be finite.

  The frames of the two kernel programs and the reference's run are generated modules; by hand are the bodies read at
  an entry (Bodies), the reference's layers read at an entry (Layers), the four regions' blocks assembled into whole
  arrays (Region0 … Region3), the kernel's run with its result named (KernelRun) and its buffers followed from boundary
  to boundary (Boundaries).
-/
import proofs.«144403_j61624190763180_1_alg».proof.Defs
import proofs.«144403_j61624190763180_1_alg».proof.Proof.Gen.Kernel
import proofs.«144403_j61624190763180_1_alg».proof.Proof.Gen.Kernel.Frame
import proofs.«144403_j61624190763180_1_alg».proof.Proof.Gen.KernelIdeal
import proofs.«144403_j61624190763180_1_alg».proof.Proof.Gen.KernelIdeal.Frame
import proofs.«144403_j61624190763180_1_alg».proof.Proof.Gen.ReferenceIdeal
import proofs.«144403_j61624190763180_1_alg».proof.Proof.Gen.Pre_finite_inputs
import proofs.«144403_j61624190763180_1_alg».proof.Proof.RunP
import proofs.«144403_j61624190763180_1_alg».proof.Proof.ReadP
import proofs.«144403_j61624190763180_1_alg».proof.Proof.KernelRun
import proofs.«144403_j61624190763180_1_alg».proof.Proof.Boundaries
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its run, with the result forgotten. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- The idealization rewrote no operation: there is nothing to preserve. -/
theorem preserves : Cert.preserves_Kernel_KernelIdeal := trivial

/-- From memories agreeing on the arguments both programs end with the reference's last stage of the arguments in
    their result arrays: the kernel's by following its buffers through the four regions, the reference's by its run. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.ReadP.val_main_v88 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.Bounds.result m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7, h8, h9, -⟩ := hagree c
    rw [Cert.ReferenceIdeal.ReadP.val_main_v88_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
